-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S3x64 : Shape := ⟨2, ![3, 64]⟩
abbrev S3 : Shape := ⟨1, ![3]⟩
abbrev S192x128 : Shape := ⟨2, ![192, 128]⟩
abbrev S128 : Shape := ⟨1, ![128]⟩
abbrev S128x32 : Shape := ⟨2, ![128, 32]⟩
abbrev S32 : Shape := ⟨1, ![32]⟩
abbrev S1200000 : Shape := ⟨1, ![1200000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S192x128 .f32) (main_arg5 : FVec F S128 .f32) (main_arg6 : FVec F S128x32 .f32) (main_arg7 : FVec F S32 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S192x128 .f32 := Host.absf main_arg4
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S3x64x64 .f32) (main_arg2 : FVec F S3x64 .f32) (main_arg3 : FVec F S3 .f32) (main_arg4 : FVec F S192x128 .f32) (main_arg5 : FVec F S128 .f32) (main_arg6 : FVec F S128x32 .f32) (main_arg7 : FVec F S32 .f32) (main_arg8 : IVec S1200000 32) (main_arg9 : IVec S1200000 32) (main_arg10 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_v13 main_v16
-- ==== Kernel.lean ====
abbrev S100000x64 : Shape := ⟨2, ![100000, 64]⟩
abbrev S3x64x64 : Shape := ⟨3, ![3, 64, 64]⟩
abbrev S3x64 : Shape := ⟨2, ![3, 64]⟩
abbrev S3 : Shape := ⟨1, ![3]⟩
abbrev S192x128 : Shape := ⟨2, ![192, 128]⟩
abbrev S128 : Shape := ⟨1, ![128]⟩
abbrev S128x32 : Shape := ⟨2, ![128, 32]⟩
abbrev S32 : Shape := ⟨1, ![32]⟩
abbrev S1200000 : Shape := ⟨1, ![1200000]⟩
abbrev S100000 : Shape := ⟨1, ![100000]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1 : Shape := ⟨1, ![1]⟩
abbrev S1x1 : Shape := ⟨2, ![1, 1]⟩
abbrev S5000x64 : Shape := ⟨2, ![5000, 64]⟩
abbrev S100000x1x64 : Shape := ⟨3, ![100000, 1, 64]⟩
abbrev S100000x3x64 : Shape := ⟨3, ![100000, 3, 64]⟩
abbrev S256x3x64 : Shape := ⟨3, ![256, 3, 64]⟩
abbrev S100000x1 : Shape := ⟨2, ![100000, 1]⟩
abbrev S256x192 : Shape := ⟨2, ![256, 192]⟩
abbrev S1x128 : Shape := ⟨2, ![1, 128]⟩
abbrev S1x32 : Shape := ⟨2, ![1, 32]⟩
abbrev S256x32 : Shape := ⟨2, ![256, 32]⟩
abbrev S256x128 : Shape := ⟨2, ![256, 128]⟩

abbrev nBuf : Space → Nat
  | .hbm => 95
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S3x64x64, .f32⟩
  | .hbm, ⟨2, _⟩ => ⟨S3x64, .f32⟩
  | .hbm, ⟨3, _⟩ => ⟨S3, .f32⟩
  | .hbm, ⟨4, _⟩ => ⟨S192x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S1200000, .i32⟩
  | .hbm, ⟨9, _⟩ => ⟨S1200000, .i32⟩
  | .hbm, ⟨10, _⟩ => ⟨S100000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S1x64x64, .f32⟩
  | .hbm, ⟨25, _⟩ => ⟨S64x64, .f32⟩
  | .hbm, ⟨26, _⟩ => ⟨S1x64, .f32⟩
  | .hbm, ⟨27, _⟩ => ⟨S64, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S_, .f32⟩
  | .hbm, ⟨45, _⟩ => ⟨S100000x64, .f32⟩
  | .hbm, ⟨46, _⟩ => ⟨S1200000x1, .i32⟩
  | .hbm, ⟨47, _⟩ => ⟨S100000x64, .f32⟩
  | .hbm, ⟨48, _⟩ => ⟨S1x64x64, .f32⟩
  | .hbm, ⟨49, _⟩ => ⟨S64x64, .f32⟩
  | .hbm, ⟨50, _⟩ => ⟨S1x64, .f32⟩
  | .hbm, ⟨51, _⟩ => ⟨S64, .f32⟩
  | .hbm, ⟨52, _⟩ => ⟨S1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x64, .f32⟩
  | .hbm, ⟨68, _⟩ => ⟨S_, .f32⟩
  | .hbm, ⟨69, _⟩ => ⟨S100000x64, .f32⟩
  | .hbm, ⟨70, _⟩ => ⟨S1200000x1, .i32⟩
  | .hbm, ⟨71, _⟩ => ⟨S100000x64, .f32⟩
  | .hbm, ⟨72, _⟩ => ⟨S1x64x64, .f32⟩
  | .hbm, ⟨73, _⟩ => ⟨S64x64, .f32⟩
  | .hbm, ⟨74, _⟩ => ⟨S1x64, .f32⟩
  | .hbm, ⟨75, _⟩ => ⟨S64, .f32⟩
  | .hbm, ⟨76, _⟩ => ⟨S1, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x1, .f32⟩
  | .hbm, ⟨81, _⟩ => ⟨S1x64, .f32⟩
  | .hbm, ⟨82, _⟩ => ⟨S100000x64, .f32⟩
  | .hbm, ⟨83, _⟩ => ⟨S100000x1x64, .f32⟩
  | .hbm, ⟨84, _⟩ => ⟨S100000x1x64, .f32⟩
  | .hbm, ⟨85, _⟩ => ⟨S100000x1x64, .f32⟩
  | .hbm, ⟨86, _⟩ => ⟨S100000x3x64, .f32⟩
  | .hbm, ⟨87, _⟩ => ⟨S_, .f32⟩
  | .hbm, ⟨88, _⟩ => ⟨S256x3x64, .f32⟩
  | .hbm, ⟨89, _⟩ => ⟨S100000x1, .i32⟩
  | .hbm, ⟨90, _⟩ => ⟨S256x3x64, .f32⟩
  | .hbm, ⟨91, _⟩ => ⟨S256x192, .f32⟩
  | .hbm, ⟨92, _⟩ => ⟨S1x128, .f32⟩
  | .hbm, ⟨93, _⟩ => ⟨S1x32, .f32⟩
  | .hbm, ⟨94, _⟩ => ⟨S256x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S1x1, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x1, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x1, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S256x192, .f32⟩
  | .local _ .vmem, ⟨28, _⟩ => ⟨S192x128, .f32⟩
  | .local _ .vmem, ⟨29, _⟩ => ⟨S1x128, .f32⟩
  | .local _ .vmem, ⟨30, _⟩ => ⟨S128x32, .f32⟩
  | .local _ .vmem, ⟨31, _⟩ => ⟨S1x32, .f32⟩
  | .local _ .vmem, ⟨32, _⟩ => ⟨S256x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3_S1_0 : S3.Slices ![0] S1
  shapeCasts_S1_S_ : S1.ShapeCasts S_
  shapeCasts_S_S1x1 : S_.ShapeCasts S1x1
  shapeCasts_S64_S1x64 : S64.ShapeCasts S1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3_S1_1 : S3.Slices ![1] S1
  slices_S3x64x64_S1x64x64_2_0_0 : S3x64x64.Slices ![2, 0, 0] S1x64x64
  slices_S3x64_S1x64_2_0 : S3x64.Slices ![2, 0] S1x64
  slices_S3_S1_2 : S3.Slices ![2] S1
  bcast_S100000x64_S100000x1x64_0_2 : S100000x64.BroadcastsInDim S100000x1x64 (![0, 2] : Fin 2 → Fin S100000x1x64.rank)
  concatenates_S100000x1x64_S100000x1x64_S100000x1x64_S100000x3x64_d1 : Shape.Concatenates [S100000x1x64, S100000x1x64, S100000x1x64] S100000x3x64 1
  bcast_S_S256x3x64 : S_.BroadcastsInDim S256x3x64 (![] : Fin 0 → Fin S256x3x64.rank)
  bcast_S100000_S100000x1_0 : S100000.BroadcastsInDim S100000x1 (![0] : Fin 1 → Fin S100000x1.rank)
  shapeCasts_S256x3x64_S256x192 : S256x3x64.ShapeCasts S256x192
  shapeCasts_S128_S1x128 : S128.ShapeCasts S1x128
  shapeCasts_S32_S1x32 : S32.ShapeCasts S1x32
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S256x3x64_S100000x1_S100000x3x64_12_0_0_1_wf : ScatterDims.WF S256x3x64 S100000x1 S100000x3x64 [1, 2] [0] [0] 1
  dot_S256x192_S192x128_S256x128_1_0_0_1_n_n_wf : DotDims.WF S256x192 S192x128 S256x128 [1] [0] [0] [1] [] []
  dot_S256x128_S128x32_S256x32_1_0_0_1_n_n_wf : DotDims.WF S256x128 S128x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x192.size a ≤ S256x192.size a
  hwx3_0 : ∀ i : grid3.Coords, EltTy.bits .f32 = 32 ∨ (Rect.block (s := S256x192) S256x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x128.size a ≤ S192x128.size a
  hwx3_1 : ∀ i : grid3.Coords, EltTy.bits .f32 = 32 ∨ (Rect.block (s := S192x128) S192x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x32.size a ≤ S128x32.size a
  hwx3_3 : ∀ i : grid3.Coords, EltTy.bits .f32 = 32 ∨ (Rect.block (s := S128x32) S128x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x32.size a ≤ S256x32.size a
  hwx3_5 : ∀ i : grid3.Coords, EltTy.bits .f32 = 32 ∨ (Rect.block (s := S256x32) S256x32.size (cc3_transform_5 i) (hinb3_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x3x64_S100000x1_S100000x3x64_12_0_0_1 : ScatterDims S256x3x64 S100000x1 S100000x3x64 where
  updateWindowDims := [1, 2]
  insertedWindowDims := [0]
  scatterDimsToOperandDims := [0]
  indexVectorDim := 1
  wf := scatter_S256x3x64_S100000x1_S100000x3x64_12_0_0_1_wf
def dot_S256x192_S192x128_S256x128_1_0_0_1_n_n : DotDims S256x192 S192x128 S256x128 where
  lhsContracting := [1]
  rhsContracting := [0]
  lhsNonContracting := [0]
  rhsNonContracting := [1]
  lhsBatch := []
  rhsBatch := []
  wf := dot_S256x192_S192x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S256x192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S256x32.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S3x64x64 : Shape := ⟨3, ![3, 64, 64]⟩
abbrev S3x64 : Shape := ⟨2, ![3, 64]⟩
abbrev S3 : Shape := ⟨1, ![3]⟩
abbrev S192x128 : Shape := ⟨2, ![192, 128]⟩
abbrev S128 : Shape := ⟨1, ![128]⟩
abbrev S128x32 : Shape := ⟨2, ![128, 32]⟩
abbrev S32 : Shape := ⟨1, ![32]⟩
abbrev S1200000 : Shape := ⟨1, ![1200000]⟩
abbrev S100000 : Shape := ⟨1, ![100000]⟩
abbrev S_ : Shape := ⟨0, ![]⟩
abbrev S1200000x1 : Shape := ⟨2, ![1200000, 1]⟩
abbrev S1200000x64 : Shape := ⟨2, ![1200000, 64]⟩
abbrev S1 : Shape := ⟨1, ![1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x1x64 : Shape := ⟨3, ![100000, 1, 64]⟩
abbrev S100000x3x64 : Shape := ⟨3, ![100000, 3, 64]⟩
abbrev S256x3x64 : Shape := ⟨3, ![256, 3, 64]⟩
abbrev S100000x1 : Shape := ⟨2, ![100000, 1]⟩
abbrev S256x192 : Shape := ⟨2, ![256, 192]⟩
abbrev S256x128 : Shape := ⟨2, ![256, 128]⟩
abbrev S1x128 : Shape := ⟨2, ![1, 128]⟩
abbrev S256x32 : Shape := ⟨2, ![256, 32]⟩
abbrev S1x32 : Shape := ⟨2, ![1, 32]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3x64x64, .f32⟩
  | .hbm, ⟨2, _⟩ => ⟨S3x64, .f32⟩
  | .hbm, ⟨3, _⟩ => ⟨S3, .f32⟩
  | .hbm, ⟨4, _⟩ => ⟨S192x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S1200000, .i32⟩
  | .hbm, ⟨9, _⟩ => ⟨S1200000, .i32⟩
  | .hbm, ⟨10, _⟩ => ⟨S100000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64x64, .f32⟩
  | .hbm, ⟨32, _⟩ => ⟨S64x64, .f32⟩
  | .hbm, ⟨33, _⟩ => ⟨S100000x64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1200000, .i32⟩
  | .hbm, ⟨75, _⟩ => ⟨S1200000, .i1⟩
  | .hbm, ⟨76, _⟩ => ⟨S_, .i32⟩
  | .hbm, ⟨77, _⟩ => ⟨S1200000, .i32⟩
  | .hbm, ⟨78, _⟩ => ⟨S1200000, .i32⟩
  | .hbm, ⟨79, _⟩ => ⟨S1200000, .i32⟩
  | .hbm, ⟨80, _⟩ => ⟨S1200000x1, .i32⟩
  | .hbm, ⟨81, _⟩ => ⟨S1200000x64, .f32⟩
  | .hbm, ⟨82, _⟩ => ⟨S_, .f32⟩
  | .hbm, ⟨83, _⟩ => ⟨S100000x64, .f32⟩
  | .hbm, ⟨84, _⟩ => ⟨S1200000x1, .i32⟩
  | .hbm, ⟨85, _⟩ => ⟨S100000x64, .f32⟩
  | .hbm, ⟨86, _⟩ => ⟨S1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64x64, .f32⟩
  | .hbm, ⟨94, _⟩ => ⟨S64x64, .f32⟩
  | .hbm, ⟨95, _⟩ => ⟨S100000x64, .f32⟩
  | .hbm, ⟨96, _⟩ => ⟨S1x64, .f32⟩
  | .hbm, ⟨97, _⟩ => ⟨S64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x1x64, .f32⟩
  | .hbm, ⟨105, _⟩ => ⟨S100000x1x64, .f32⟩
  | .hbm, ⟨106, _⟩ => ⟨S100000x1x64, .f32⟩
  | .hbm, ⟨107, _⟩ => ⟨S100000x3x64, .f32⟩
  | .hbm, ⟨108, _⟩ => ⟨S_, .f32⟩
  | .hbm, ⟨109, _⟩ => ⟨S256x3x64, .f32⟩
  | .hbm, ⟨110, _⟩ => ⟨S100000x1, .i32⟩
  | .hbm, ⟨111, _⟩ => ⟨S256x3x64, .f32⟩
  | .hbm, ⟨112, _⟩ => ⟨S256x192, .f32⟩
  | .hbm, ⟨113, _⟩ => ⟨S256x128, .f32⟩
  | .hbm, ⟨114, _⟩ => ⟨S1x128, .f32⟩
  | .hbm, ⟨115, _⟩ => ⟨S256x128, .f32⟩
  | .hbm, ⟨116, _⟩ => ⟨S256x128, .f32⟩
  | .hbm, ⟨117, _⟩ => ⟨S_, .f32⟩
  | .hbm, ⟨118, _⟩ => ⟨S256x128, .f32⟩
  | .hbm, ⟨119, _⟩ => ⟨S256x128, .f32⟩
  | .hbm, ⟨120, _⟩ => ⟨S256x32, .f32⟩
  | .hbm, ⟨121, _⟩ => ⟨S1x32, .f32⟩
  | .hbm, ⟨122, _⟩ => ⟨S256x32, .f32⟩
  | .hbm, ⟨123, _⟩ => ⟨S256x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_c_6 : Ref sig .tc := ⟨.hbm, 73, rfl⟩
abbrev main_v50 : Ref sig .tc := ⟨.hbm, 74, rfl⟩
abbrev main_v51 : Ref sig .tc := ⟨.hbm, 75, rfl⟩
abbrev main_c_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call2_cst : Ref sig .tc := ⟨.hbm, 101, rfl⟩
abbrev main_call2_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_10 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_call3_cst : Ref sig .tc := ⟨.hbm, 117, rfl⟩
abbrev main_call3_v0 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3_S1_1 : S3.Slices ![1] S1
  slices_S3x64x64_S1x64x64_1_0_0 : S3x64x64.Slices ![1, 0, 0] S1x64x64
  slices_S3x64_S1x64_1_0 : S3x64.Slices ![1, 0] S1x64
  slices_S3_S1_2 : S3.Slices ![2] S1
  slices_S3x64x64_S1x64x64_2_0_0 : S3x64x64.Slices ![2, 0, 0] S1x64x64
  slices_S3x64_S1x64_2_0 : S3x64.Slices ![2, 0] S1x64
  bcast_S100000x64_S100000x1x64_0_2 : S100000x64.BroadcastsInDim S100000x1x64 (![0, 2] : Fin 2 → Fin S100000x1x64.rank)
  concatenates_S100000x1x64_S100000x1x64_S100000x1x64_S100000x3x64_d1 : Shape.Concatenates [S100000x1x64, S100000x1x64, S100000x1x64] S100000x3x64 1
  bcast_S_S256x3x64 : S_.BroadcastsInDim S256x3x64 (![] : Fin 0 → Fin S256x3x64.rank)
  bcast_S100000_S100000x1_0 : S100000.BroadcastsInDim S100000x1 (![0] : Fin 1 → Fin S100000x1.rank)
  shapeCasts_S256x3x64_S256x192 : S256x3x64.ShapeCasts S256x192
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S256x3x64_S100000x1_S100000x3x64_12_0_0_1_wf : ScatterDims.WF S256x3x64 S100000x1 S100000x3x64 [1, 2] [0] [0] 1
  dot_S256x192_S192x128_S256x128_1_0_0_1_n_n_wf : DotDims.WF S256x192 S192x128 S256x128 [1] [0] [0] [1] [] []
  dot_S256x128_S128x32_S256x32_1_0_0_1_n_n_wf : DotDims.WF S256x128 S128x32 S256x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x3x64_S100000x1_S100000x3x64_12_0_0_1 : ScatterDims S256x3x64 S100000x1 S100000x3x64 where
  updateWindowDims := [1, 2]
  insertedWindowDims := [0]
  scatterDimsToOperandDims := [0]
  indexVectorDim := 1
  wf := scatter_S256x3x64_S100000x1_S100000x3x64_12_0_0_1_wf
def dot_S256x192_S192x128_S256x128_1_0_0_1_n_n : DotDims S256x192 S192x128 S256x128 where
  lhsContracting := [1]
  rhsContracting := [0]
  lhsNonContracting := [0]
  rhsNonContracting := [1]
  lhsBatch := []
  rhsBatch := []
  wf := dot_S256x192_S192x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

class Facts : Prop extends Facts₀ where

variable [Facts]
-- ==== Proof.KRegion0.lean ====
/-
  Region 0 of the program (one pallas_call), at any float instance and at any contents `V` of the TensorCore's
  buffers when the region is entered.  The body loads its five input blocks whole, computes one value from them and
  stores it over the whole output block; so after the body the output's staging buffer holds that value
  (`out0_5` of the input blocks) and the input buffers are as found.  From this: the pipeline's proof data
  (`dat0`: the arrays as found, each input buffer at its block and the output buffer at `out0_5` of the
  blocks after every point) and the body obligation at every grid point.
-/
import proofs.«126898_j74603581932004_1_alg».proof.Proof.Gen.Kernel.Launch
import proofs.«126898_j74603581932004_1_alg».proof.Proof.Gen.Kernel.Skeleton
import proofs.«126898_j74603581932004_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (where it is not
    fetched its block index has not moved), for any proof data whose array is `V`'s and whose body leaves the
    block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output buffer after the body, from the input blocks: the one whole-block store of the body's value. -/
def out0_5 (x0 : Vec F S5000x64 .f32) (x1 : Vec F S5000x64 .f32) (x2 : Vec F S1x1 .f32) (x3 : Vec F S64x64 .f32) (x4 : Vec F S1x64 .f32) : Vec F S5000x64 .f32 :=
  View.canon [⟨(Rect.unit (s := S5000x64) ![0, 0] S5000x64.size inb_S5000x64_S5000x64_0_0), k0_pay1 (View.ld x2 (Rect.unit (s := S1x1) ![0, 0] S1x1.size inb_S1x1_S1x1_0_0)) (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store is of the whole block, so it covers it. -/
theorem cover0_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers, the inputs' at `x0 … x4` and the output's at anything, runs to the
    continuation with the inputs' as they were and the output's at `out0_5` of them. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__gin_kernel i arg1 harg1 arg2 harg2 arg3 harg3 arg4 harg4 arg5 harg5 arg6 harg6) K := by
  simp only [cc0__gin_kernel_eq_skeleton]; unfold cc0__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body at point `t`
    each input's buffer at its block and the output's at `out0_5` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the program (one pallas_call), at any float instance and at any contents `V` of the TensorCore's
  buffers when the region is entered.  The body loads its five input blocks whole, computes one value from them and
  stores it over the whole output block; so after the body the output's staging buffer holds that value
  (`out1_5` of the input blocks) and the input buffers are as found.  From this: the pipeline's proof data
  (`dat1`: the arrays as found, each input buffer at its block and the output buffer at `out1_5` of the
  blocks after every point) and the body obligation at every grid point.
-/
import proofs.«126898_j74603581932004_1_alg».proof.Proof.Gen.Kernel.Launch
import proofs.«126898_j74603581932004_1_alg».proof.Proof.Gen.Kernel.Skeleton
import proofs.«126898_j74603581932004_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (where it is not
    fetched its block index has not moved), for any proof data whose array is `V`'s and whose body leaves the
    block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output buffer after the body, from the input blocks: the one whole-block store of the body's value. -/
def out1_5 (x0 : Vec F S5000x64 .f32) (x1 : Vec F S5000x64 .f32) (x2 : Vec F S1x1 .f32) (x3 : Vec F S64x64 .f32) (x4 : Vec F S1x64 .f32) : Vec F S5000x64 .f32 :=
  View.canon [⟨(Rect.unit (s := S5000x64) ![0, 0] S5000x64.size inb_S5000x64_S5000x64_0_0), k1_pay1 (View.ld x2 (Rect.unit (s := S1x1) ![0, 0] S1x1.size inb_S1x1_S1x1_0_0)) (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store is of the whole block, so it covers it. -/
theorem cover1_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers, the inputs' at `x0 … x4` and the output's at anything, runs to the
    continuation with the inputs' as they were and the output's at `out1_5` of them. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__gin_kernel i arg1 harg1 arg2 harg2 arg3 harg3 arg4 harg4 arg5 harg5 arg6 harg6) K := by
  simp only [cc1__gin_kernel_eq_skeleton]; unfold cc1__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point `t`
    each input's buffer at its block and the output's at `out1_5` of the input blocks; the invariant leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  Region 2 of the program (one pallas_call), at any float instance and at any contents `V` of the TensorCore's
  buffers when the region is entered.  The body loads its five input blocks whole, computes one value from them and
  stores it over the whole output block; so after the body the output's staging buffer holds that value
  (`out2_5` of the input blocks) and the input buffers are as found.  From this: the pipeline's proof data
  (`dat2`: the arrays as found, each input buffer at its block and the output buffer at `out2_5` of the
  blocks after every point) and the body obligation at every grid point.
-/
import proofs.«126898_j74603581932004_1_alg».proof.Proof.Gen.Kernel.Launch
import proofs.«126898_j74603581932004_1_alg».proof.Proof.Gen.Kernel.Skeleton
import proofs.«126898_j74603581932004_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not (where it is not
    fetched its block index has not moved), for any proof data whose array is `V`'s and whose body leaves the
    block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output buffer after the body, from the input blocks: the one whole-block store of the body's value. -/
def out2_5 (x0 : Vec F S5000x64 .f32) (x1 : Vec F S5000x64 .f32) (x2 : Vec F S1x1 .f32) (x3 : Vec F S64x64 .f32) (x4 : Vec F S1x64 .f32) : Vec F S5000x64 .f32 :=
  View.canon [⟨(Rect.unit (s := S5000x64) ![0, 0] S5000x64.size inb_S5000x64_S5000x64_0_0), k2_pay1 (View.ld x2 (Rect.unit (s := S1x1) ![0, 0] S1x1.size inb_S1x1_S1x1_0_0)) (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store is of the whole block, so it covers it. -/
theorem cover2_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers, the inputs' at `x0 … x4` and the output's at anything, runs to the
    continuation with the inputs' as they were and the output's at `out2_5` of them. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__gin_kernel i arg1 harg1 arg2 harg2 arg3 harg3 arg4 harg4 arg5 harg5 arg6 harg6) K := by
  simp only [cc2__gin_kernel_eq_skeleton]; unfold cc2__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this pipeline on core `c`: the arrays as the region finds them; after the body at point `t`
    each input's buffer at its block and the output's at `out2_5` of the input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/-
  Region 3 of the program (one pallas_call), at any float instance and at any contents `V` of the TensorCore's
  buffers when the region is entered.  The body loads its five input blocks whole, computes one value from them and
  stores it over the whole output block; so after the body the output's staging buffer holds that value
  (`out3_5` of the input blocks) and the input buffers are as found.  From this: the pipeline's proof data
  (`dat3`: the arrays as found, each input buffer at its block and the output buffer at `out3_5` of the
  blocks after every point) and the body obligation at every grid point.
-/
import proofs.«126898_j74603581932004_1_alg».proof.Proof.Gen.Kernel.Launch
import proofs.«126898_j74603581932004_1_alg».proof.Proof.Gen.Kernel.Skeleton
import proofs.«126898_j74603581932004_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, fetched there or not (where it is not
    fetched its block index has not moved), for any proof data whose array is `V`'s and whose body leaves the
    block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output buffer after the body, from the input blocks: the one whole-block store of the body's value. -/
def out3_5 (x0 : Vec F S256x192 .f32) (x1 : Vec F S192x128 .f32) (x2 : Vec F S1x128 .f32) (x3 : Vec F S128x32 .f32) (x4 : Vec F S1x32 .f32) : Vec F S256x32 .f32 :=
  View.canon [⟨(Rect.unit (s := S256x32) ![0, 0] S256x32.size inb_S256x32_S256x32_0_0), k3_pay1 (View.ld x0 (Rect.unit (s := S256x192) ![0, 0] S256x192.size inb_S256x192_S256x192_0_0)) (View.ld x1 (Rect.unit (s := S192x128) ![0, 0] S192x128.size inb_S192x128_S192x128_0_0)) (View.ld x2 (Rect.unit (s := S1x128) ![0, 0] S1x128.size inb_S1x128_S1x128_0_0)) (View.ld x3 (Rect.unit (s := S128x32) ![0, 0] S128x32.size inb_S128x32_S128x32_0_0)) (View.ld x4 (Rect.unit (s := S1x32) ![0, 0] S1x32.size inb_S1x32_S1x32_0_0))⟩]

/-- The store is of the whole block, so it covers it. -/
theorem cover3_5 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

set_option maxHeartbeats 1000000 in
/-- The body on whole staging buffers, the inputs' at `x0 … x4` and the output's at anything, runs to the
    continuation with the inputs' as they were and the output's at `out3_5` of them. -/
theorem sound_kernel3 (c : Dev nD) (E : Set ℕ) (i : grid3.Coords) (arg1 : Memref sig .tc .vmem S256x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S256x32 .f32) (harg6 : arg6.IsWhole)
    (x0 : Vec F S256x192 .f32) (x1 : Vec F S192x128 .f32) (x2 : Vec F S1x128 .f32) (x3 : Vec F S128x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__readout_kernel i arg1 harg1 arg2 harg2 arg3 harg3 arg4 harg4 arg5 harg5 arg6 harg6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core `c`: the arrays as the region finds them; after the body at point `t`
    each input's buffer at its block and the output's at `out3_5` of the input blocks; the invariant leaves the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  The whole run of the program: four kernel regions, each preceded by a stretch of host operations.

  The contents of a core's unscoped buffers are followed from the launch to the return as a fold of nine
  valuations `W0 … W8`: `W0` is the launch memory; an odd `W(2K+1)` is `W(2K)` after host stretch `K`
  (region `K`'s entry contents); an even `W(2K+2)` is `W(2K+1)` with region `K`'s six window arrays replaced
  by what the region's pipeline leaves in them (an input array as entered, the output array with every
  write-back folded in) and every other buffer untouched.  Each region's proof data are taken at its own entry
  contents.  Over the thread state "every unscoped buffer held at the current valuation, the generator register
  at some state, nothing owed" the eight items chain, and the launch theorem for a list of segments gives:
  every weakly fair run terminates and the final memory agrees with `W8` on every unscoped buffer
  (`run_all`).  Separately, `W8` at each of the eleven argument arrays is the launch contents: no host
  operation writes an argument and no region has one as its output array (`W8_main_argJ`).
-/
import proofs.«126898_j74603581932004_1_alg».proof.Proof.KRegion0
import proofs.«126898_j74603581932004_1_alg».proof.Proof.KRegion1
import proofs.«126898_j74603581932004_1_alg».proof.Proof.KRegion2
import proofs.«126898_j74603581932004_1_alg».proof.Proof.KRegion3
import proofs.«126898_j74603581932004_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The contents of the unscoped buffers at each of the nine boundaries -/

/-- Core `c`'s buffers when the program is launched. -/
abbrev W0 : Dev nD → Valuation τ sig (Elt F) := fun c b => (s₀ m ρ).mem ((c : Dev nD), b)

/-! ## Region 0: entered at `W1`, left at `W2` -/

/-- The first host stretch run from `W0`: each operation's result written over its destination, in order. -/
abbrev W1 : Dev nD → Valuation τ sig (Elt F) := fun c => StableHlo.after hostOps0 (W0 m ρ c)
/-- `W1` read at the TensorCore's own references: the contents region 0's proof data are taken at. -/
abbrev E1 : (c : Dev nD) → (b : Ref sig .tc) → Buf (Elt F) ((c : Thread nD τ).loc b) := fun c b => W1 m ρ c b
/-- `W1` with region 0's window arrays at what its pipeline has made of them after the last grid point; any
    buffer that is no window array of the region keeps its entry contents. -/
def W2 (c : Dev nD) : Valuation τ sig (Elt F) :=
  Pipeline.withArrays spec0 c (W1 m ρ c) fun w => (dat0 (E1 m ρ) c).arrAt w cfg0.N
/-- At a window array of region 0 (the arrays are pairwise distinct buffers). -/
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
/-- Away from region 0's window arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2` read at the TensorCore's own references. -/
abbrev X2 : (c : Dev nD) → (b : Ref sig .tc) → Buf (Elt F) ((c : Thread nD τ).loc b) := fun c b => W2 m ρ c b
/-- The exit contents at a window array are the pipeline's, -/
theorem hF0 (c : Dev nD) (w : Fin cfg0.W) : (dat0 (E1 m ρ) c).arrAt w cfg0.N = X2 m ρ c (Pipeline.arrRef spec0 w) :=
  (W2_arr m ρ c w).symm
/-- and elsewhere the entry contents. -/
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)
/-- A buffer outside the list of destinations of the first host stretch is not changed by it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- An INPUT window's array leaves region 0 as it entered: no write-back ever targets it, so the fold of
    write-backs is the entry array, which the proof data read off `W1`. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hin _).trans (A_eq0 (E1 m ρ) c w))

/-! ## Region 1: entered at `W3`, left at `W4` -/

/-- The second host stretch run from `W2`: each operation's result written over its destination, in order. -/
abbrev W3 : Dev nD → Valuation τ sig (Elt F) := fun c => StableHlo.after hostOps1 (W2 m ρ c)
/-- `W3` read at the TensorCore's own references: the contents region 1's proof data are taken at. -/
abbrev E3 : (c : Dev nD) → (b : Ref sig .tc) → Buf (Elt F) ((c : Thread nD τ).loc b) := fun c b => W3 m ρ c b
/-- `W3` with region 1's window arrays at what its pipeline has made of them after the last grid point; any
    buffer that is no window array of the region keeps its entry contents. -/
def W4 (c : Dev nD) : Valuation τ sig (Elt F) :=
  Pipeline.withArrays spec1 c (W3 m ρ c) fun w => (dat1 (E3 m ρ) c).arrAt w cfg1.N
/-- At a window array of region 1 (the arrays are pairwise distinct buffers). -/
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
/-- Away from region 1's window arrays. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- `W4` read at the TensorCore's own references. -/
abbrev X4 : (c : Dev nD) → (b : Ref sig .tc) → Buf (Elt F) ((c : Thread nD τ).loc b) := fun c b => W4 m ρ c b
/-- The exit contents at a window array are the pipeline's, -/
theorem hF1 (c : Dev nD) (w : Fin cfg1.W) : (dat1 (E3 m ρ) c).arrAt w cfg1.N = X4 m ρ c (Pipeline.arrRef spec1 w) :=
  (W4_arr m ρ c w).symm
/-- and elsewhere the entry contents. -/
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)
/-- A buffer outside the list of destinations of the second host stretch is not changed by it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- An INPUT window's array leaves region 1 as it entered: no write-back ever targets it, so the fold of
    write-backs is the entry array, which the proof data read off `W3`. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hin _).trans (A_eq1 (E3 m ρ) c w))

/-! ## Region 2: entered at `W5`, left at `W6` -/

/-- The third host stretch run from `W4`: each operation's result written over its destination, in order. -/
abbrev W5 : Dev nD → Valuation τ sig (Elt F) := fun c => StableHlo.after hostOps2 (W4 m ρ c)
/-- `W5` read at the TensorCore's own references: the contents region 2's proof data are taken at. -/
abbrev E5 : (c : Dev nD) → (b : Ref sig .tc) → Buf (Elt F) ((c : Thread nD τ).loc b) := fun c b => W5 m ρ c b
/-- `W5` with region 2's window arrays at what its pipeline has made of them after the last grid point; any
    buffer that is no window array of the region keeps its entry contents. -/
def W6 (c : Dev nD) : Valuation τ sig (Elt F) :=
  Pipeline.withArrays spec2 c (W5 m ρ c) fun w => (dat2 (E5 m ρ) c).arrAt w cfg2.N
/-- At a window array of region 2 (the arrays are pairwise distinct buffers). -/
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
/-- Away from region 2's window arrays. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- `W6` read at the TensorCore's own references. -/
abbrev X6 : (c : Dev nD) → (b : Ref sig .tc) → Buf (Elt F) ((c : Thread nD τ).loc b) := fun c b => W6 m ρ c b
/-- The exit contents at a window array are the pipeline's, -/
theorem hF2 (c : Dev nD) (w : Fin cfg2.W) : (dat2 (E5 m ρ) c).arrAt w cfg2.N = X6 m ρ c (Pipeline.arrRef spec2 w) :=
  (W6_arr m ρ c w).symm
/-- and elsewhere the entry contents. -/
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)
/-- A buffer outside the list of destinations of the third host stretch is not changed by it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- An INPUT window's array leaves region 2 as it entered: no write-back ever targets it, so the fold of
    write-backs is the entry array, which the proof data read off `W5`. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hin _).trans (A_eq2 (E5 m ρ) c w))

/-! ## Region 3: entered at `W7`, left at `W8` -/

/-- The fourth host stretch run from `W6`: each operation's result written over its destination, in order. -/
abbrev W7 : Dev nD → Valuation τ sig (Elt F) := fun c => StableHlo.after hostOps3 (W6 m ρ c)
/-- `W7` read at the TensorCore's own references: the contents region 3's proof data are taken at. -/
abbrev E7 : (c : Dev nD) → (b : Ref sig .tc) → Buf (Elt F) ((c : Thread nD τ).loc b) := fun c b => W7 m ρ c b
/-- `W7` with region 3's window arrays at what its pipeline has made of them after the last grid point; any
    buffer that is no window array of the region keeps its entry contents. -/
def W8 (c : Dev nD) : Valuation τ sig (Elt F) :=
  Pipeline.withArrays spec3 c (W7 m ρ c) fun w => (dat3 (E7 m ρ) c).arrAt w cfg3.N
/-- At a window array of region 3 (the arrays are pairwise distinct buffers). -/
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
/-- Away from region 3's window arrays. -/
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- `W8` read at the TensorCore's own references. -/
abbrev X8 : (c : Dev nD) → (b : Ref sig .tc) → Buf (Elt F) ((c : Thread nD τ).loc b) := fun c b => W8 m ρ c b
/-- The exit contents at a window array are the pipeline's, -/
theorem hF3 (c : Dev nD) (w : Fin cfg3.W) : (dat3 (E7 m ρ) c).arrAt w cfg3.N = X8 m ρ c (Pipeline.arrRef spec3 w) :=
  (W8_arr m ρ c w).symm
/-- and elsewhere the entry contents. -/
theorem hrest3 (c : Dev nD) : ∀ b, b ∉ Finset.univ.image (Pipeline.arrRef spec3) → X8 m ρ c b = E7 m ρ c b :=
  fun b hb => W8_of_ne m ρ c b fun w e => hb (Finset.mem_image.mpr ⟨w, Finset.mem_univ _, e⟩)
/-- A buffer outside the list of destinations of the fourth host stretch is not changed by it. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- An INPUT window's array leaves region 3 as it entered: no write-back ever targets it, so the fold of
    write-backs is the entry array, which the proof data read off `W7`. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (E7 m ρ) c).arrAt_in w hin _).trans (A_eq3 (E7 m ρ) c w))

/-! # The arguments end as launched

An argument array is the destination of no host operation.  Of the regions' window arrays, the arguments are
`main_arg0` (window 0 of region 0) and `main_arg4`, `main_arg6` (windows 1 and 3 of region 3), all three INPUT
windows; every region's output array is a result buffer.  So walking `W8` back to `W0` at an argument, each
host stretch is passed by `W(2K+1)_keep` and each region by `W(2K+2)_of_ne` or, at those three, `W(2K+2)_in`. -/

/-- A buffer that no host stretch writes and that is no window array of any region holds its launch contents at the end. -/
theorem W8_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r a3
    _ = W6 m ρ c (Proc.devRef .tc r) := W7_keep m ρ c r h3
    _ = W5 m ρ c (Proc.devRef .tc r) := W6_of_ne m ρ c r a2
    _ = W4 m ρ c (Proc.devRef .tc r) := W5_keep m ρ c r h2
    _ = W3 m ρ c (Proc.devRef .tc r) := W4_of_ne m ρ c r a1
    _ = W2 m ρ c (Proc.devRef .tc r) := W3_keep m ρ c r h1
    _ = W1 m ρ c (Proc.devRef .tc r) := W2_of_ne m ρ c r a0
    _ = W0 m ρ c (Proc.devRef .tc r) := W1_keep m ρ c r h0
    _ = m ((c : Thread nD τ).loc r) := rfl

/-- `main_arg0` is written by no host stretch; it is the array of input window 0 of region 0 and of no other region. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

/-- `main_arg1` is written by no host stretch and is no region's window array. -/
theorem W8_main_arg1 (c : Dev nD) : W8 m ρ c (Proc.devRef .tc main_arg1) = m ((c : Thread nD τ).loc main_arg1) :=
  W8_untouched m ρ c main_arg1 (by decide) (by decide) (by decide) (by decide) (by decide) (by decide) (by decide) (by decide)

/-- `main_arg2` is written by no host stretch and is no region's window array. -/
theorem W8_main_arg2 (c : Dev nD) : W8 m ρ c (Proc.devRef .tc main_arg2) = m ((c : Thread nD τ).loc main_arg2) :=
  W8_untouched m ρ c main_arg2 (by decide) (by decide) (by decide) (by decide) (by decide) (by decide) (by decide) (by decide)

/-- `main_arg3` is written by no host stretch and is no region's window array. -/
theorem W8_main_arg3 (c : Dev nD) : W8 m ρ c (Proc.devRef .tc main_arg3) = m ((c : Thread nD τ).loc main_arg3) :=
  W8_untouched m ρ c main_arg3 (by decide) (by decide) (by decide) (by decide) (by decide) (by decide) (by decide) (by decide)

/-- `main_arg4` is written by no host stretch; it is the array of input window 1 of region 3 and of no other region. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_in m ρ c 1 rfl
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

/-- `main_arg5` is written by no host stretch and is no region's window array. -/
theorem W8_main_arg5 (c : Dev nD) : W8 m ρ c (Proc.devRef .tc main_arg5) = m ((c : Thread nD τ).loc main_arg5) :=
  W8_untouched m ρ c main_arg5 (by decide) (by decide) (by decide) (by decide) (by decide) (by decide) (by decide) (by decide)

/-- `main_arg6` is written by no host stretch; it is the array of input window 3 of region 3 and of no other region. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_in m ρ c 3 rfl
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

/-- `main_arg7` is written by no host stretch and is no region's window array. -/
theorem W8_main_arg7 (c : Dev nD) : W8 m ρ c (Proc.devRef .tc main_arg7) = m ((c : Thread nD τ).loc main_arg7) :=
  W8_untouched m ρ c main_arg7 (by decide) (by decide) (by decide) (by decide) (by decide) (by decide) (by decide) (by decide)

/-- `main_arg8` is written by no host stretch and is no region's window array. -/
theorem W8_main_arg8 (c : Dev nD) : W8 m ρ c (Proc.devRef .tc main_arg8) = m ((c : Thread nD τ).loc main_arg8) :=
  W8_untouched m ρ c main_arg8 (by decide) (by decide) (by decide) (by decide) (by decide) (by decide) (by decide) (by decide)

/-- `main_arg9` is written by no host stretch and is no region's window array. -/
theorem W8_main_arg9 (c : Dev nD) : W8 m ρ c (Proc.devRef .tc main_arg9) = m ((c : Thread nD τ).loc main_arg9) :=
  W8_untouched m ρ c main_arg9 (by decide) (by decide) (by decide) (by decide) (by decide) (by decide) (by decide) (by decide)

/-- `main_arg10` is written by no host stretch and is no region's window array. -/
theorem W8_main_arg10 (c : Dev nD) : W8 m ρ c (Proc.devRef .tc main_arg10) = m ((c : Thread nD τ).loc main_arg10) :=
  W8_untouched m ρ c main_arg10 (by decide) (by decide) (by decide) (by decide) (by decide) (by decide) (by decide) (by decide)

/-! # The proof data of the four pipelines, and what a core holds between items -/

/-- No pipeline prefetches a table: the admissible table contents are the trivial ones. -/
abbrev hadm : (p : Fin 4) → (pcfgs (F := F) p).Adm := fun p => (cfgs p).toPCfg_adm
/-- Pipeline `p`'s proof data, taken at region `p`'s entry contents.  Written as a match on the four numerals so
    that at a numeral it reduces to that region's data over that region's configuration. -/
def hpdats : (p : Fin 4) → (c : Dev nD) → Dat τ (Elt F) Unit ℕ (UR sig nD τ) ℕ (Pipeline.pin (pcfgs (F := F)) hadm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱₀ : Variants := Variants.none
/-- No core ever owes another a unit, so no pair of cores carries a level. -/
abbrev L : GSem nD τ sig → Finset Unit := fun _ => ∅
abbrev lv : GSem nD τ sig → Unit → ℕ := fun _ _ => 0
/-- Beside the buffers a core carries its generator register, at a state nobody reads, and the record that it owes nothing. -/
abbrev R (c : Dev nD) : sProp 𝕄 := iprop((∃ r, prngReg c r) ∗ ∃ W, owes (c : Thread nD τ) (0 : CellTallies nD τ sig Unit) W)
/-- A stretch of host operations as a segment from the contents `W`: it takes every unscoped buffer held at `W c`
    to the same buffers held at `StableHlo.after ops (W c)`, and `R` passes through. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A TensorCore reference that is not scoped is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state apart from the dues: every unscoped buffer held at `W8`, the generator register at some state. -/
abbrev Tₙ (c : Dev nD) : sProp 𝕄 := iprop(StableHlo.held (c : Thread nD τ) (Pipeline.ucRefs τ sig) (W8 m ρ c) ∗ ∃ r, prngReg c r)

/-! # The regions as segments

Each region is entered holding every unscoped buffer at its entry valuation.  Its six window arrays are split
off (they are distinct whole unscoped buffers, and the proof data's entry arrays are read off that valuation);
the remaining unscoped buffers bypass the region; the generator register goes into the pipeline's invariant and
comes back out of it; the pipeline has no table, no semaphore of its own, and owes nothing at any point.  At the
exit the arrays, now at the pipeline's final contents, are put back beside the bypassed buffers, which is every
unscoped buffer held at the exit valuation. -/

set_option backward.isDefEq.respectTransparency.types false in
/-- Region 0: from every unscoped buffer at `W1` to every unscoped buffer at `W2`. -/
def reg0 : Pipeline.RegionSeg (pcfgs (F := F)) hadm (hpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (E1 m ρ c) (X2 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from every unscoped buffer at `W3` to every unscoped buffer at `W4`. -/
def reg1 : Pipeline.RegionSeg (pcfgs (F := F)) hadm (hpdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (E3 m ρ c) (X4 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from every unscoped buffer at `W5` to every unscoped buffer at `W6`. -/
def reg2 : Pipeline.RegionSeg (pcfgs (F := F)) hadm (hpdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (E5 m ρ c) (X6 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: from every unscoped buffer at `W7` to every unscoped buffer at `W8`, the last thread state. -/
def reg3 : Pipeline.RegionSeg (pcfgs (F := F)) hadm (hpdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) hadm (hpdats m ρ) launch3.win launch3.arr_whole c
      ((hpdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m ρ) ((hpdats m ρ 3 c).share_full fun _ => rfl)
      (E7 m ρ c) (X8 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as eight segments, and the launch -/

/-- The program's items in order: host stretch `K` from `W(2K)`, then region `K`, for `K = 0 … 3`. -/
abbrev hsegs : List (Pipeline.Seg (pcfgs (F := F)) hadm (hpdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- The program is the run of those segments: it is the chain of their eight fragments, and a run of segments is
    the chain of its fragments. -/
theorem main_run (c : Dev nD) : main (F := F) c = Pipeline.Seg.run (hsegs m ρ) := by
  rw [main_chain c, Pipeline.Seg.run_eq_chain]
  rfl

set_option backward.isDefEq.respectTransparency.types false in
/-- From any launch memory with every semaphore counter at zero, every weakly fair run of the program on the
    TensorCores terminates without fault, and in the final memory every unscoped buffer of every core holds what
    the fold assigns it, `W8`.  The thread states chain by definition (a host segment ends at the valuation the
    next region is entered at, and conversely); the first is made from what the launch hands each core; the last
    is read against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) hadm (hpdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

end Cert.Kernel.Hand

end
-- ==== Proof.KiRegion0.lean ====
/-
  Region 0 of the program (one pallas_call), at any float instance and at any contents `V` of the TensorCore's
  buffers when the region is entered.  The body loads its five input blocks whole, computes one value from them and
  stores it over the whole output block; so after the body the output's staging buffer holds that value
  (`out0_5` of the input blocks) and the input buffers are as found.  From this: the pipeline's proof data
  (`dat0`: the arrays as found, each input buffer at its block and the output buffer at `out0_5` of the
  blocks after every point) and the body obligation at every grid point.
-/
import proofs.«126898_j74603581932004_1_alg».proof.Proof.Gen.KernelIdeal.Launch
import proofs.«126898_j74603581932004_1_alg».proof.Proof.Gen.KernelIdeal.Skeleton
import proofs.«126898_j74603581932004_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (where it is not
    fetched its block index has not moved), for any proof data whose array is `V`'s and whose body leaves the
    block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output buffer after the body, from the input blocks: the one whole-block store of the body's value. -/
def out0_5 (x0 : Vec F S5000x64 .f32) (x1 : Vec F S5000x64 .f32) (x2 : Vec F S1x1 .f32) (x3 : Vec F S64x64 .f32) (x4 : Vec F S1x64 .f32) : Vec F S5000x64 .f32 :=
  View.canon [⟨(Rect.unit (s := S5000x64) ![0, 0] S5000x64.size inb_S5000x64_S5000x64_0_0), k0_pay1 (View.ld x2 (Rect.unit (s := S1x1) ![0, 0] S1x1.size inb_S1x1_S1x1_0_0)) (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store is of the whole block, so it covers it. -/
theorem cover0_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers, the inputs' at `x0 … x4` and the output's at anything, runs to the
    continuation with the inputs' as they were and the output's at `out0_5` of them. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__gin_kernel i arg1 harg1 arg2 harg2 arg3 harg3 arg4 harg4 arg5 harg5 arg6 harg6) K := by
  simp only [cc0__gin_kernel_eq_skeleton]; unfold cc0__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body at point `t`
    each input's buffer at its block and the output's at `out0_5` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  Region 1 of the program (one pallas_call), at any float instance and at any contents `V` of the TensorCore's
  buffers when the region is entered.  The body loads its five input blocks whole, computes one value from them and
  stores it over the whole output block; so after the body the output's staging buffer holds that value
  (`out1_5` of the input blocks) and the input buffers are as found.  From this: the pipeline's proof data
  (`dat1`: the arrays as found, each input buffer at its block and the output buffer at `out1_5` of the
  blocks after every point) and the body obligation at every grid point.
-/
import proofs.«126898_j74603581932004_1_alg».proof.Proof.Gen.KernelIdeal.Launch
import proofs.«126898_j74603581932004_1_alg».proof.Proof.Gen.KernelIdeal.Skeleton
import proofs.«126898_j74603581932004_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (where it is not
    fetched its block index has not moved), for any proof data whose array is `V`'s and whose body leaves the
    block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output buffer after the body, from the input blocks: the one whole-block store of the body's value. -/
def out1_5 (x0 : Vec F S5000x64 .f32) (x1 : Vec F S5000x64 .f32) (x2 : Vec F S1x1 .f32) (x3 : Vec F S64x64 .f32) (x4 : Vec F S1x64 .f32) : Vec F S5000x64 .f32 :=
  View.canon [⟨(Rect.unit (s := S5000x64) ![0, 0] S5000x64.size inb_S5000x64_S5000x64_0_0), k1_pay1 (View.ld x2 (Rect.unit (s := S1x1) ![0, 0] S1x1.size inb_S1x1_S1x1_0_0)) (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store is of the whole block, so it covers it. -/
theorem cover1_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers, the inputs' at `x0 … x4` and the output's at anything, runs to the
    continuation with the inputs' as they were and the output's at `out1_5` of them. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__gin_kernel i arg1 harg1 arg2 harg2 arg3 harg3 arg4 harg4 arg5 harg5 arg6 harg6) K := by
  simp only [cc1__gin_kernel_eq_skeleton]; unfold cc1__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point `t`
    each input's buffer at its block and the output's at `out1_5` of the input blocks; the invariant leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRegion2.lean ====
/-
  Region 2 of the program (one pallas_call), at any float instance and at any contents `V` of the TensorCore's
  buffers when the region is entered.  The body loads its five input blocks whole, computes one value from them and
  stores it over the whole output block; so after the body the output's staging buffer holds that value
  (`out2_5` of the input blocks) and the input buffers are as found.  From this: the pipeline's proof data
  (`dat2`: the arrays as found, each input buffer at its block and the output buffer at `out2_5` of the
  blocks after every point) and the body obligation at every grid point.
-/
import proofs.«126898_j74603581932004_1_alg».proof.Proof.Gen.KernelIdeal.Launch
import proofs.«126898_j74603581932004_1_alg».proof.Proof.Gen.KernelIdeal.Skeleton
import proofs.«126898_j74603581932004_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not (where it is not
    fetched its block index has not moved), for any proof data whose array is `V`'s and whose body leaves the
    block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output buffer after the body, from the input blocks: the one whole-block store of the body's value. -/
def out2_5 (x0 : Vec F S5000x64 .f32) (x1 : Vec F S5000x64 .f32) (x2 : Vec F S1x1 .f32) (x3 : Vec F S64x64 .f32) (x4 : Vec F S1x64 .f32) : Vec F S5000x64 .f32 :=
  View.canon [⟨(Rect.unit (s := S5000x64) ![0, 0] S5000x64.size inb_S5000x64_S5000x64_0_0), k2_pay1 (View.ld x2 (Rect.unit (s := S1x1) ![0, 0] S1x1.size inb_S1x1_S1x1_0_0)) (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store is of the whole block, so it covers it. -/
theorem cover2_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers, the inputs' at `x0 … x4` and the output's at anything, runs to the
    continuation with the inputs' as they were and the output's at `out2_5` of them. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S1x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__gin_kernel i arg1 harg1 arg2 harg2 arg3 harg3 arg4 harg4 arg5 harg5 arg6 harg6) K := by
  simp only [cc2__gin_kernel_eq_skeleton]; unfold cc2__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this pipeline on core `c`: the arrays as the region finds them; after the body at point `t`
    each input's buffer at its block and the output's at `out2_5` of the input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRegion3.lean ====
/-
  Region 3 of the program (one pallas_call), at any float instance and at any contents `V` of the TensorCore's
  buffers when the region is entered.  The body loads its five input blocks whole, computes one value from them and
  stores it over the whole output block; so after the body the output's staging buffer holds that value
  (`out3_5` of the input blocks) and the input buffers are as found.  From this: the pipeline's proof data
  (`dat3`: the arrays as found, each input buffer at its block and the output buffer at `out3_5` of the
  blocks after every point) and the body obligation at every grid point.
-/
import proofs.«126898_j74603581932004_1_alg».proof.Proof.Gen.KernelIdeal.Launch
import proofs.«126898_j74603581932004_1_alg».proof.Proof.Gen.KernelIdeal.Skeleton
import proofs.«126898_j74603581932004_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, fetched there or not (where it is not
    fetched its block index has not moved), for any proof data whose array is `V`'s and whose body leaves the
    block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output buffer after the body, from the input blocks: the one whole-block store of the body's value. -/
def out3_5 (x0 : Vec F S256x192 .f32) (x1 : Vec F S192x128 .f32) (x2 : Vec F S1x128 .f32) (x3 : Vec F S128x32 .f32) (x4 : Vec F S1x32 .f32) : Vec F S256x32 .f32 :=
  View.canon [⟨(Rect.unit (s := S256x32) ![0, 0] S256x32.size inb_S256x32_S256x32_0_0), k3_pay1 (View.ld x0 (Rect.unit (s := S256x192) ![0, 0] S256x192.size inb_S256x192_S256x192_0_0)) (View.ld x1 (Rect.unit (s := S192x128) ![0, 0] S192x128.size inb_S192x128_S192x128_0_0)) (View.ld x2 (Rect.unit (s := S1x128) ![0, 0] S1x128.size inb_S1x128_S1x128_0_0)) (View.ld x3 (Rect.unit (s := S128x32) ![0, 0] S128x32.size inb_S128x32_S128x32_0_0)) (View.ld x4 (Rect.unit (s := S1x32) ![0, 0] S1x32.size inb_S1x32_S1x32_0_0))⟩]

/-- The store is of the whole block, so it covers it. -/
theorem cover3_5 (p0 : Vec F S256x32 .f32) (y : S256x32.Idx) :
    ∃ pc ∈ ([⟨(Rect.unit (s := S256x32) ![0, 0] S256x32.size inb_S256x32_S256x32_0_0), p0⟩] : List (View.Piece (Elt F) S256x32 .f32)), y ∈ pc.1.set :=
  View.cover_of_tiled [⟨(Rect.unit (s := S256x32) ![0, 0] S256x32.size inb_S256x32_S256x32_0_0), p0⟩] S256x32.size (by rfl) y

set_option maxHeartbeats 1000000 in
/-- The body on whole staging buffers, the inputs' at `x0 … x4` and the output's at anything, runs to the
    continuation with the inputs' as they were and the output's at `out3_5` of them. -/
theorem sound_kernel3 (c : Dev nD) (E : Set ℕ) (i : grid3.Coords) (arg1 : Memref sig .tc .vmem S256x192 .f32) (harg1 : arg1.IsWhole) (arg2 : Memref sig .tc .vmem S192x128 .f32) (harg2 : arg2.IsWhole) (arg3 : Memref sig .tc .vmem S1x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S256x32 .f32) (harg6 : arg6.IsWhole)
    (x0 : Vec F S256x192 .f32) (x1 : Vec F S192x128 .f32) (x2 : Vec F S1x128 .f32) (x3 : Vec F S128x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__readout_kernel i arg1 harg1 arg2 harg2 arg3 harg3 arg4 harg4 arg5 harg5 arg6 harg6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core `c`: the arrays as the region finds them; after the body at point `t`
    each input's buffer at its block and the output's at `out3_5` of the input blocks; the invariant leaves the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiRun.lean ====
/-
  The whole run of the program: four kernel regions, each preceded by a stretch of host operations.

  The contents of a core's unscoped buffers are followed from the launch to the return as a fold of nine
  valuations `W0 … W8`: `W0` is the launch memory; an odd `W(2K+1)` is `W(2K)` after host stretch `K`
  (region `K`'s entry contents); an even `W(2K+2)` is `W(2K+1)` with region `K`'s six window arrays replaced
  by what the region's pipeline leaves in them (an input array as entered, the output array with every
  write-back folded in) and every other buffer untouched.  Each region's proof data are taken at its own entry
  contents.  Over the thread state "every unscoped buffer held at the current valuation, the generator register
  at some state, nothing owed" the eight items chain, and the launch theorem for a list of segments gives:
  every weakly fair run terminates and the final memory agrees with `W8` on every unscoped buffer
  (`run_all`).  Separately, `W8` at each of the eleven argument arrays is the launch contents: no host
  operation writes an argument and no region has one as its output array (`W8_main_argJ`).
-/
import proofs.«126898_j74603581932004_1_alg».proof.Proof.KiRegion0
import proofs.«126898_j74603581932004_1_alg».proof.Proof.KiRegion1
import proofs.«126898_j74603581932004_1_alg».proof.Proof.KiRegion2
import proofs.«126898_j74603581932004_1_alg».proof.Proof.KiRegion3
import proofs.«126898_j74603581932004_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The contents of the unscoped buffers at each of the nine boundaries -/

/-- Core `c`'s buffers when the program is launched. -/
abbrev W0 : Dev nD → Valuation τ sig (Elt F) := fun c b => (s₀ m ρ).mem ((c : Dev nD), b)

/-! ## Region 0: entered at `W1`, left at `W2` -/

/-- The first host stretch run from `W0`: each operation's result written over its destination, in order. -/
abbrev W1 : Dev nD → Valuation τ sig (Elt F) := fun c => StableHlo.after hostOps0 (W0 m ρ c)
/-- `W1` read at the TensorCore's own references: the contents region 0's proof data are taken at. -/
abbrev E1 : (c : Dev nD) → (b : Ref sig .tc) → Buf (Elt F) ((c : Thread nD τ).loc b) := fun c b => W1 m ρ c b
/-- `W1` with region 0's window arrays at what its pipeline has made of them after the last grid point; any
    buffer that is no window array of the region keeps its entry contents. -/
def W2 (c : Dev nD) : Valuation τ sig (Elt F) :=
  Pipeline.withArrays spec0 c (W1 m ρ c) fun w => (dat0 (E1 m ρ) c).arrAt w cfg0.N
/-- At a window array of region 0 (the arrays are pairwise distinct buffers). -/
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
/-- Away from region 0's window arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2` read at the TensorCore's own references. -/
abbrev X2 : (c : Dev nD) → (b : Ref sig .tc) → Buf (Elt F) ((c : Thread nD τ).loc b) := fun c b => W2 m ρ c b
/-- The exit contents at a window array are the pipeline's, -/
theorem hF0 (c : Dev nD) (w : Fin cfg0.W) : (dat0 (E1 m ρ) c).arrAt w cfg0.N = X2 m ρ c (Pipeline.arrRef spec0 w) :=
  (W2_arr m ρ c w).symm
/-- and elsewhere the entry contents. -/
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)
/-- A buffer outside the list of destinations of the first host stretch is not changed by it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- An INPUT window's array leaves region 0 as it entered: no write-back ever targets it, so the fold of
    write-backs is the entry array, which the proof data read off `W1`. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hin _).trans (A_eq0 (E1 m ρ) c w))

/-! ## Region 1: entered at `W3`, left at `W4` -/

/-- The second host stretch run from `W2`: each operation's result written over its destination, in order. -/
abbrev W3 : Dev nD → Valuation τ sig (Elt F) := fun c => StableHlo.after hostOps1 (W2 m ρ c)
/-- `W3` read at the TensorCore's own references: the contents region 1's proof data are taken at. -/
abbrev E3 : (c : Dev nD) → (b : Ref sig .tc) → Buf (Elt F) ((c : Thread nD τ).loc b) := fun c b => W3 m ρ c b
/-- `W3` with region 1's window arrays at what its pipeline has made of them after the last grid point; any
    buffer that is no window array of the region keeps its entry contents. -/
def W4 (c : Dev nD) : Valuation τ sig (Elt F) :=
  Pipeline.withArrays spec1 c (W3 m ρ c) fun w => (dat1 (E3 m ρ) c).arrAt w cfg1.N
/-- At a window array of region 1 (the arrays are pairwise distinct buffers). -/
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
/-- Away from region 1's window arrays. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- `W4` read at the TensorCore's own references. -/
abbrev X4 : (c : Dev nD) → (b : Ref sig .tc) → Buf (Elt F) ((c : Thread nD τ).loc b) := fun c b => W4 m ρ c b
/-- The exit contents at a window array are the pipeline's, -/
theorem hF1 (c : Dev nD) (w : Fin cfg1.W) : (dat1 (E3 m ρ) c).arrAt w cfg1.N = X4 m ρ c (Pipeline.arrRef spec1 w) :=
  (W4_arr m ρ c w).symm
/-- and elsewhere the entry contents. -/
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)
/-- A buffer outside the list of destinations of the second host stretch is not changed by it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- An INPUT window's array leaves region 1 as it entered: no write-back ever targets it, so the fold of
    write-backs is the entry array, which the proof data read off `W3`. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hin _).trans (A_eq1 (E3 m ρ) c w))

/-! ## Region 2: entered at `W5`, left at `W6` -/

/-- The third host stretch run from `W4`: each operation's result written over its destination, in order. -/
abbrev W5 : Dev nD → Valuation τ sig (Elt F) := fun c => StableHlo.after hostOps2 (W4 m ρ c)
/-- `W5` read at the TensorCore's own references: the contents region 2's proof data are taken at. -/
abbrev E5 : (c : Dev nD) → (b : Ref sig .tc) → Buf (Elt F) ((c : Thread nD τ).loc b) := fun c b => W5 m ρ c b
/-- `W5` with region 2's window arrays at what its pipeline has made of them after the last grid point; any
    buffer that is no window array of the region keeps its entry contents. -/
def W6 (c : Dev nD) : Valuation τ sig (Elt F) :=
  Pipeline.withArrays spec2 c (W5 m ρ c) fun w => (dat2 (E5 m ρ) c).arrAt w cfg2.N
/-- At a window array of region 2 (the arrays are pairwise distinct buffers). -/
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
/-- Away from region 2's window arrays. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- `W6` read at the TensorCore's own references. -/
abbrev X6 : (c : Dev nD) → (b : Ref sig .tc) → Buf (Elt F) ((c : Thread nD τ).loc b) := fun c b => W6 m ρ c b
/-- The exit contents at a window array are the pipeline's, -/
theorem hF2 (c : Dev nD) (w : Fin cfg2.W) : (dat2 (E5 m ρ) c).arrAt w cfg2.N = X6 m ρ c (Pipeline.arrRef spec2 w) :=
  (W6_arr m ρ c w).symm
/-- and elsewhere the entry contents. -/
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)
/-- A buffer outside the list of destinations of the third host stretch is not changed by it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- An INPUT window's array leaves region 2 as it entered: no write-back ever targets it, so the fold of
    write-backs is the entry array, which the proof data read off `W5`. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hin _).trans (A_eq2 (E5 m ρ) c w))

/-! ## Region 3: entered at `W7`, left at `W8` -/

/-- The fourth host stretch run from `W6`: each operation's result written over its destination, in order. -/
abbrev W7 : Dev nD → Valuation τ sig (Elt F) := fun c => StableHlo.after hostOps3 (W6 m ρ c)
/-- `W7` read at the TensorCore's own references: the contents region 3's proof data are taken at. -/
abbrev E7 : (c : Dev nD) → (b : Ref sig .tc) → Buf (Elt F) ((c : Thread nD τ).loc b) := fun c b => W7 m ρ c b
/-- `W7` with region 3's window arrays at what its pipeline has made of them after the last grid point; any
    buffer that is no window array of the region keeps its entry contents. -/
def W8 (c : Dev nD) : Valuation τ sig (Elt F) :=
  Pipeline.withArrays spec3 c (W7 m ρ c) fun w => (dat3 (E7 m ρ) c).arrAt w cfg3.N
/-- At a window array of region 3 (the arrays are pairwise distinct buffers). -/
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
/-- Away from region 3's window arrays. -/
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- `W8` read at the TensorCore's own references. -/
abbrev X8 : (c : Dev nD) → (b : Ref sig .tc) → Buf (Elt F) ((c : Thread nD τ).loc b) := fun c b => W8 m ρ c b
/-- The exit contents at a window array are the pipeline's, -/
theorem hF3 (c : Dev nD) (w : Fin cfg3.W) : (dat3 (E7 m ρ) c).arrAt w cfg3.N = X8 m ρ c (Pipeline.arrRef spec3 w) :=
  (W8_arr m ρ c w).symm
/-- and elsewhere the entry contents. -/
theorem hrest3 (c : Dev nD) : ∀ b, b ∉ Finset.univ.image (Pipeline.arrRef spec3) → X8 m ρ c b = E7 m ρ c b :=
  fun b hb => W8_of_ne m ρ c b fun w e => hb (Finset.mem_image.mpr ⟨w, Finset.mem_univ _, e⟩)
/-- A buffer outside the list of destinations of the fourth host stretch is not changed by it. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- An INPUT window's array leaves region 3 as it entered: no write-back ever targets it, so the fold of
    write-backs is the entry array, which the proof data read off `W7`. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (E7 m ρ) c).arrAt_in w hin _).trans (A_eq3 (E7 m ρ) c w))

/-! # The arguments end as launched

An argument array is the destination of no host operation.  Of the regions' window arrays, the arguments are
`main_arg0` (window 0 of region 0) and `main_arg4`, `main_arg6` (windows 1 and 3 of region 3), all three INPUT
windows; every region's output array is a result buffer.  So walking `W8` back to `W0` at an argument, each
host stretch is passed by `W(2K+1)_keep` and each region by `W(2K+2)_of_ne` or, at those three, `W(2K+2)_in`. -/

/-- A buffer that no host stretch writes and that is no window array of any region holds its launch contents at the end. -/
theorem W8_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r a3
    _ = W6 m ρ c (Proc.devRef .tc r) := W7_keep m ρ c r h3
    _ = W5 m ρ c (Proc.devRef .tc r) := W6_of_ne m ρ c r a2
    _ = W4 m ρ c (Proc.devRef .tc r) := W5_keep m ρ c r h2
    _ = W3 m ρ c (Proc.devRef .tc r) := W4_of_ne m ρ c r a1
    _ = W2 m ρ c (Proc.devRef .tc r) := W3_keep m ρ c r h1
    _ = W1 m ρ c (Proc.devRef .tc r) := W2_of_ne m ρ c r a0
    _ = W0 m ρ c (Proc.devRef .tc r) := W1_keep m ρ c r h0
    _ = m ((c : Thread nD τ).loc r) := rfl

/-- `main_arg0` is written by no host stretch; it is the array of input window 0 of region 0 and of no other region. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

/-- `main_arg1` is written by no host stretch and is no region's window array. -/
theorem W8_main_arg1 (c : Dev nD) : W8 m ρ c (Proc.devRef .tc main_arg1) = m ((c : Thread nD τ).loc main_arg1) :=
  W8_untouched m ρ c main_arg1 (by decide) (by decide) (by decide) (by decide) (by decide) (by decide) (by decide) (by decide)

/-- `main_arg2` is written by no host stretch and is no region's window array. -/
theorem W8_main_arg2 (c : Dev nD) : W8 m ρ c (Proc.devRef .tc main_arg2) = m ((c : Thread nD τ).loc main_arg2) :=
  W8_untouched m ρ c main_arg2 (by decide) (by decide) (by decide) (by decide) (by decide) (by decide) (by decide) (by decide)

/-- `main_arg3` is written by no host stretch and is no region's window array. -/
theorem W8_main_arg3 (c : Dev nD) : W8 m ρ c (Proc.devRef .tc main_arg3) = m ((c : Thread nD τ).loc main_arg3) :=
  W8_untouched m ρ c main_arg3 (by decide) (by decide) (by decide) (by decide) (by decide) (by decide) (by decide) (by decide)

/-- `main_arg4` is written by no host stretch; it is the array of input window 1 of region 3 and of no other region. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_in m ρ c 1 rfl
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

/-- `main_arg5` is written by no host stretch and is no region's window array. -/
theorem W8_main_arg5 (c : Dev nD) : W8 m ρ c (Proc.devRef .tc main_arg5) = m ((c : Thread nD τ).loc main_arg5) :=
  W8_untouched m ρ c main_arg5 (by decide) (by decide) (by decide) (by decide) (by decide) (by decide) (by decide) (by decide)

/-- `main_arg6` is written by no host stretch; it is the array of input window 3 of region 3 and of no other region. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_in m ρ c 3 rfl
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

/-- `main_arg7` is written by no host stretch and is no region's window array. -/
theorem W8_main_arg7 (c : Dev nD) : W8 m ρ c (Proc.devRef .tc main_arg7) = m ((c : Thread nD τ).loc main_arg7) :=
  W8_untouched m ρ c main_arg7 (by decide) (by decide) (by decide) (by decide) (by decide) (by decide) (by decide) (by decide)

/-- `main_arg8` is written by no host stretch and is no region's window array. -/
theorem W8_main_arg8 (c : Dev nD) : W8 m ρ c (Proc.devRef .tc main_arg8) = m ((c : Thread nD τ).loc main_arg8) :=
  W8_untouched m ρ c main_arg8 (by decide) (by decide) (by decide) (by decide) (by decide) (by decide) (by decide) (by decide)

/-- `main_arg9` is written by no host stretch and is no region's window array. -/
theorem W8_main_arg9 (c : Dev nD) : W8 m ρ c (Proc.devRef .tc main_arg9) = m ((c : Thread nD τ).loc main_arg9) :=
  W8_untouched m ρ c main_arg9 (by decide) (by decide) (by decide) (by decide) (by decide) (by decide) (by decide) (by decide)

/-- `main_arg10` is written by no host stretch and is no region's window array. -/
theorem W8_main_arg10 (c : Dev nD) : W8 m ρ c (Proc.devRef .tc main_arg10) = m ((c : Thread nD τ).loc main_arg10) :=
  W8_untouched m ρ c main_arg10 (by decide) (by decide) (by decide) (by decide) (by decide) (by decide) (by decide) (by decide)

/-! # The proof data of the four pipelines, and what a core holds between items -/

/-- No pipeline prefetches a table: the admissible table contents are the trivial ones. -/
abbrev hadm : (p : Fin 4) → (pcfgs (F := F) p).Adm := fun p => (cfgs p).toPCfg_adm
/-- Pipeline `p`'s proof data, taken at region `p`'s entry contents.  Written as a match on the four numerals so
    that at a numeral it reduces to that region's data over that region's configuration. -/
def hpdats : (p : Fin 4) → (c : Dev nD) → Dat τ (Elt F) Unit ℕ (UR sig nD τ) ℕ (Pipeline.pin (pcfgs (F := F)) hadm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱₀ : Variants := Variants.none
/-- No core ever owes another a unit, so no pair of cores carries a level. -/
abbrev L : GSem nD τ sig → Finset Unit := fun _ => ∅
abbrev lv : GSem nD τ sig → Unit → ℕ := fun _ _ => 0
/-- Beside the buffers a core carries its generator register, at a state nobody reads, and the record that it owes nothing. -/
abbrev R (c : Dev nD) : sProp 𝕄 := iprop((∃ r, prngReg c r) ∗ ∃ W, owes (c : Thread nD τ) (0 : CellTallies nD τ sig Unit) W)
/-- A stretch of host operations as a segment from the contents `W`: it takes every unscoped buffer held at `W c`
    to the same buffers held at `StableHlo.after ops (W c)`, and `R` passes through. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A TensorCore reference that is not scoped is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state apart from the dues: every unscoped buffer held at `W8`, the generator register at some state. -/
abbrev Tₙ (c : Dev nD) : sProp 𝕄 := iprop(StableHlo.held (c : Thread nD τ) (Pipeline.ucRefs τ sig) (W8 m ρ c) ∗ ∃ r, prngReg c r)

/-! # The regions as segments

Each region is entered holding every unscoped buffer at its entry valuation.  Its six window arrays are split
off (they are distinct whole unscoped buffers, and the proof data's entry arrays are read off that valuation);
the remaining unscoped buffers bypass the region; the generator register goes into the pipeline's invariant and
comes back out of it; the pipeline has no table, no semaphore of its own, and owes nothing at any point.  At the
exit the arrays, now at the pipeline's final contents, are put back beside the bypassed buffers, which is every
unscoped buffer held at the exit valuation. -/

set_option backward.isDefEq.respectTransparency.types false in
/-- Region 0: from every unscoped buffer at `W1` to every unscoped buffer at `W2`. -/
def reg0 : Pipeline.RegionSeg (pcfgs (F := F)) hadm (hpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (E1 m ρ c) (X2 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from every unscoped buffer at `W3` to every unscoped buffer at `W4`. -/
def reg1 : Pipeline.RegionSeg (pcfgs (F := F)) hadm (hpdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (E3 m ρ c) (X4 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from every unscoped buffer at `W5` to every unscoped buffer at `W6`. -/
def reg2 : Pipeline.RegionSeg (pcfgs (F := F)) hadm (hpdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (E5 m ρ c) (X6 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: from every unscoped buffer at `W7` to every unscoped buffer at `W8`, the last thread state. -/
def reg3 : Pipeline.RegionSeg (pcfgs (F := F)) hadm (hpdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) hadm (hpdats m ρ) launch3.win launch3.arr_whole c
      ((hpdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m ρ) ((hpdats m ρ 3 c).share_full fun _ => rfl)
      (E7 m ρ c) (X8 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as eight segments, and the launch -/

/-- The program's items in order: host stretch `K` from `W(2K)`, then region `K`, for `K = 0 … 3`. -/
abbrev hsegs : List (Pipeline.Seg (pcfgs (F := F)) hadm (hpdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- The program is the run of those segments: it is the chain of their eight fragments, and a run of segments is
    the chain of its fragments. -/
theorem main_run (c : Dev nD) : main (F := F) c = Pipeline.Seg.run (hsegs m ρ) := by
  rw [main_chain c, Pipeline.Seg.run_eq_chain]
  rfl

set_option backward.isDefEq.respectTransparency.types false in
/-- From any launch memory with every semaphore counter at zero, every weakly fair run of the program on the
    TensorCores terminates without fault, and in the final memory every unscoped buffer of every core holds what
    the fold assigns it, `W8`.  The thread states chain by definition (a host segment ends at the valuation the
    next region is entered at, and conversely); the first is made from what the launch hands each core; the last
    is read against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) hadm (hpdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

end Cert.KernelIdeal.Hand

end
-- ==== Proof.LayerSpec.lean ====
/-
  THE DENSE PARTS OF THE NETWORK AS FUNCTIONS OF AN INDEX, over the extended reals.

  A message-passing layer takes node features `h` and aggregated neighbour features `agg` (both n × 64), a scalar
  `s` (one plus the layer's epsilon), a 64 × 64 weight `W` and a bias `b`, and returns, at node `r` and feature `j`,
      max (∑ k, (s · h[r,k] + agg[r,k]) · W[k,j] + b[j]) z
  where `z` is the float zero.  The read-out takes graph features `g` (n × 192), weights `W1` (192 × 128), `W2`
  (128 × 32) and biases, and returns  ∑ m, max (∑ k, g[r,k] · W1[k,m] + b1[m]) z · W2[m,j] + b2[j].
  Both programs compute exactly these expressions; they differ only in how the small operands are laid out and in
  which unit forms the products, so no law of the extended reals beyond the definitions is needed.
-/
import Idealize.ShloMosaic.PureOps.Ideal.Laws
import Idealize.ShloMosaic.Lib.ValueIdx

noncomputable section

open scoped BigOperators

namespace Cert.Spec

open Idealize.ShloMosaic Idealize.ShloMosaic.ValueIdx

/-- The float zero both programs compare against (the same word on both sides; never evaluated). -/
abbrev fzero : EReal := Ideal.ofBits .f32 0x00000000#32

/-- One message-passing layer's dense update at node `r`, feature `j`. -/
def layerAt {n : Nat} (s : EReal) (h agg : (⟨2, ![n, 64]⟩ : Shape).Idx → EReal) (W : (⟨2, ![64, 64]⟩ : Shape).Idx → EReal)
    (b : Fin 64 → EReal) (r : Fin n) (j : Fin 64) : EReal :=
  max ((∑ k : Fin 64, (s * h (ix2 r k) + agg (ix2 r k)) * W (ix2 k j)) + b j) fzero

/-- The layer as an array. -/
def layer {n : Nat} (s : EReal) (h agg : (⟨2, ![n, 64]⟩ : Shape).Idx → EReal) (W : (⟨2, ![64, 64]⟩ : Shape).Idx → EReal)
    (b : Fin 64 → EReal) : (⟨2, ![n, 64]⟩ : Shape).Idx → EReal :=
  fun i => layerAt s h agg W b (i 0) (i 1)

/-- The read-out's hidden activation at graph `r`, unit `m`. -/
def hiddenAt {n : Nat} (g : (⟨2, ![n, 192]⟩ : Shape).Idx → EReal) (W1 : (⟨2, ![192, 128]⟩ : Shape).Idx → EReal)
    (b1 : Fin 128 → EReal) (r : Fin n) (m : Fin 128) : EReal :=
  max ((∑ k : Fin 192, g (ix2 r k) * W1 (ix2 k m)) + b1 m) fzero

/-- The read-out at graph `r`, output `j`. -/
def readoutAt {n : Nat} (g : (⟨2, ![n, 192]⟩ : Shape).Idx → EReal) (W1 : (⟨2, ![192, 128]⟩ : Shape).Idx → EReal)
    (b1 : Fin 128 → EReal) (W2 : (⟨2, ![128, 32]⟩ : Shape).Idx → EReal) (b2 : Fin 32 → EReal) (r : Fin n) (j : Fin 32) : EReal :=
  (∑ m : Fin 128, hiddenAt g W1 b1 r m * W2 (ix2 m j)) + b2 j

/-- The read-out as an array. -/
def readout {n : Nat} (g : (⟨2, ![n, 192]⟩ : Shape).Idx → EReal) (W1 : (⟨2, ![192, 128]⟩ : Shape).Idx → EReal)
    (b1 : Fin 128 → EReal) (W2 : (⟨2, ![128, 32]⟩ : Shape).Idx → EReal) (b2 : Fin 32 → EReal) :
    (⟨2, ![n, 32]⟩ : Shape).Idx → EReal :=
  fun i => readoutAt g W1 b1 W2 b2 (i 0) (i 1)

theorem layer_ix2 {n : Nat} (s : EReal) (h agg : (⟨2, ![n, 64]⟩ : Shape).Idx → EReal) (W : (⟨2, ![64, 64]⟩ : Shape).Idx → EReal)
    (b : Fin 64 → EReal) (r : Fin n) (j : Fin 64) : layer s h agg W b (ix2 r j) = layerAt s h agg W b r j := rfl

theorem readout_ix2 {n : Nat} (g : (⟨2, ![n, 192]⟩ : Shape).Idx → EReal) (W1 : (⟨2, ![192, 128]⟩ : Shape).Idx → EReal)
    (b1 : Fin 128 → EReal) (W2 : (⟨2, ![128, 32]⟩ : Shape).Idx → EReal) (b2 : Fin 32 → EReal) (r : Fin n) (j : Fin 32) :
    readout g W1 b1 W2 b2 (ix2 r j) = readoutAt g W1 b1 W2 b2 r j := rfl

/-- The layer's value at a node depends only on the scalar, that node's rows of the two feature arrays, the weight's
    column and the bias entry: equal data give equal values, whatever arrays (of whatever heights) they are read from. -/
theorem layerAt_congr {n n' : Nat} {s s' : EReal} {h agg : (⟨2, ![n, 64]⟩ : Shape).Idx → EReal}
    {h' agg' : (⟨2, ![n', 64]⟩ : Shape).Idx → EReal} {W W' : (⟨2, ![64, 64]⟩ : Shape).Idx → EReal} {b b' : Fin 64 → EReal}
    {r : Fin n} {r' : Fin n'} {j j' : Fin 64}
    (hs : s = s') (hh : ∀ k, h (ix2 r k) = h' (ix2 r' k)) (ha : ∀ k, agg (ix2 r k) = agg' (ix2 r' k))
    (hW : ∀ k, W (ix2 k j) = W' (ix2 k j')) (hb : b j = b' j') :
    layerAt s h agg W b r j = layerAt s' h' agg' W' b' r' j' := by
  unfold layerAt
  rw [hs, hb]
  exact congrArg (fun x => max (x + b' j') fzero) (Finset.sum_congr rfl fun k _ => by rw [hh k, ha k, hW k])

/-- The same for the read-out: its value at a graph depends only on that graph's row, the weights' columns and the bias entries. -/
theorem readoutAt_congr {n n' : Nat} {g : (⟨2, ![n, 192]⟩ : Shape).Idx → EReal} {g' : (⟨2, ![n', 192]⟩ : Shape).Idx → EReal}
    {W1 W1' : (⟨2, ![192, 128]⟩ : Shape).Idx → EReal} {b1 b1' : Fin 128 → EReal}
    {W2 W2' : (⟨2, ![128, 32]⟩ : Shape).Idx → EReal} {b2 b2' : Fin 32 → EReal} {r : Fin n} {r' : Fin n'} {j j' : Fin 32}
    (hg : ∀ k, g (ix2 r k) = g' (ix2 r' k)) (hW1 : ∀ k m, W1 (ix2 k m) = W1' (ix2 k m)) (hb1 : ∀ m, b1 m = b1' m)
    (hW2 : ∀ m, W2 (ix2 m j) = W2' (ix2 m j')) (hb2 : b2 j = b2' j') :
    readoutAt g W1 b1 W2 b2 r j = readoutAt g' W1' b1' W2' b2' r' j' := by
  unfold readoutAt hiddenAt
  rw [hb2]
  refine congrArg (· + b2' j') (Finset.sum_congr rfl fun m _ => ?_)
  rw [hW2 m, hb1 m]
  exact congrArg (fun x => max (x + b1' m) fzero * W2' (ix2 m j')) (Finset.sum_congr rfl fun k _ => by rw [hg k, hW1 k m])

end Cert.Spec

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.KiPay.lean ====
/-
  WHAT EACH KERNEL STORES, READ AT AN INDEX, over the extended reals.  Each kernel body computes one value from its
  loaded blocks and stores it; here that value, at row `r` and column `j` of the block, is identified with the
  specification's expression of the same blocks.  Changes of float format are the identity, a product into a zero
  accumulator is the plain sum over the contracted axis, and a one-row block broadcast over the rows reads its row.
-/
import proofs.«126898_j74603581932004_1_alg».proof.Proof.Gen.KernelIdeal.Skeleton
import proofs.«126898_j74603581932004_1_alg».proof.Proof.LayerSpec
import proofs.«126898_j74603581932004_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Idealize.ShloMosaic Idealize.ShloMosaic.ValueIdx Idealize.ShloMosaic.Pipeline
open Cert.KernelIdeal Cert.KernelIdeal.Gen

/-- The one entry of a 1 × 1 block, extracted at position (0, 0), is the block read at (0, 0). -/
theorem extract00 {α : Type} (v : S1x1.Idx → α) (h : ∀ a, (![0, 0] : Fin S1x1.rank → Nat) a < S1x1.size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- The layer kernel's stored value at row `r`, feature `j` of its block, from the five loaded blocks: the
    scalar block's one entry scales the node block, the neighbour block is added, the row is contracted against
    the weight block's column `j`, the bias row's entry `j` is added, and the result is cut at the float zero. -/
theorem pay0_apply (v0 : Vec Ideal S1x1 .f32) (v2 : Vec Ideal S5000x64 .f32) (v5 : Vec Ideal S5000x64 .f32)
    (v9 : Vec Ideal S64x64 .f32) (v13 : Vec Ideal S1x64 .f32) (r : Fin 5000) (j : Fin 64) :
    k0_pay1 (F := Ideal) v0 v2 v5 v9 v13 (ix2 r j)
      = Cert.Spec.layerAt (v0 (ix2 (0 : Fin 1) (0 : Fin 1))) v2 v5 v9 (fun j => v13 (ix2 (0 : Fin 1) j)) r j := by
  unfold k0_pay1 Cert.Spec.layerAt
  simp only [shapeCast_self]
  rw [maximumf_apply, addf_apply]
  refine congrArg₂ max (congrArg₂ (· + ·) ?_ ?_) rfl
  · refine (Ideal.matmul_constant_zero_apply _ none _ _ _).trans ?_
    refine (PlainDot.contraction_eq_sum dot_S5000x64_S64x64_S5000x64_1_0_0_1_n_n rfl rfl
      (fun _ _ => rfl) (fun _ _ => rfl) (fun _ _ => rfl) (fun _ _ => rfl) _ _ r j).trans ?_
    refine Finset.sum_congr rfl fun k _ => ?_
    show (extractAt ![0, 0] v0 _ * v2 (ix2 r k) + v5 (ix2 r k)) * v9 (ix2 k j) = _
    rw [extract00]
  · exact broadcastTo_1b_ab_apply v13 _ r j

/-- The layer kernel's stored value at row `r`, feature `j` of its block, from the five loaded blocks: the
    scalar block's one entry scales the node block, the neighbour block is added, the row is contracted against
    the weight block's column `j`, the bias row's entry `j` is added, and the result is cut at the float zero. -/
theorem pay1_apply (v0 : Vec Ideal S1x1 .f32) (v2 : Vec Ideal S5000x64 .f32) (v5 : Vec Ideal S5000x64 .f32)
    (v9 : Vec Ideal S64x64 .f32) (v13 : Vec Ideal S1x64 .f32) (r : Fin 5000) (j : Fin 64) :
    k1_pay1 (F := Ideal) v0 v2 v5 v9 v13 (ix2 r j)
      = Cert.Spec.layerAt (v0 (ix2 (0 : Fin 1) (0 : Fin 1))) v2 v5 v9 (fun j => v13 (ix2 (0 : Fin 1) j)) r j := by
  unfold k1_pay1 Cert.Spec.layerAt
  simp only [shapeCast_self]
  rw [maximumf_apply, addf_apply]
  refine congrArg₂ max (congrArg₂ (· + ·) ?_ ?_) rfl
  · refine (Ideal.matmul_constant_zero_apply _ none _ _ _).trans ?_
    refine (PlainDot.contraction_eq_sum dot_S5000x64_S64x64_S5000x64_1_0_0_1_n_n rfl rfl
      (fun _ _ => rfl) (fun _ _ => rfl) (fun _ _ => rfl) (fun _ _ => rfl) _ _ r j).trans ?_
    refine Finset.sum_congr rfl fun k _ => ?_
    show (extractAt ![0, 0] v0 _ * v2 (ix2 r k) + v5 (ix2 r k)) * v9 (ix2 k j) = _
    rw [extract00]
  · exact broadcastTo_1b_ab_apply v13 _ r j

/-- The layer kernel's stored value at row `r`, feature `j` of its block, from the five loaded blocks: the
    scalar block's one entry scales the node block, the neighbour block is added, the row is contracted against
    the weight block's column `j`, the bias row's entry `j` is added, and the result is cut at the float zero. -/
theorem pay2_apply (v0 : Vec Ideal S1x1 .f32) (v2 : Vec Ideal S5000x64 .f32) (v5 : Vec Ideal S5000x64 .f32)
    (v9 : Vec Ideal S64x64 .f32) (v13 : Vec Ideal S1x64 .f32) (r : Fin 5000) (j : Fin 64) :
    k2_pay1 (F := Ideal) v0 v2 v5 v9 v13 (ix2 r j)
      = Cert.Spec.layerAt (v0 (ix2 (0 : Fin 1) (0 : Fin 1))) v2 v5 v9 (fun j => v13 (ix2 (0 : Fin 1) j)) r j := by
  unfold k2_pay1 Cert.Spec.layerAt
  simp only [shapeCast_self]
  rw [maximumf_apply, addf_apply]
  refine congrArg₂ max (congrArg₂ (· + ·) ?_ ?_) rfl
  · refine (Ideal.matmul_constant_zero_apply _ none _ _ _).trans ?_
    refine (PlainDot.contraction_eq_sum dot_S5000x64_S64x64_S5000x64_1_0_0_1_n_n rfl rfl
      (fun _ _ => rfl) (fun _ _ => rfl) (fun _ _ => rfl) (fun _ _ => rfl) _ _ r j).trans ?_
    refine Finset.sum_congr rfl fun k _ => ?_
    show (extractAt ![0, 0] v0 _ * v2 (ix2 r k) + v5 (ix2 r k)) * v9 (ix2 k j) = _
    rw [extract00]
  · exact broadcastTo_1b_ab_apply v13 _ r j

/-- The read-out kernel's stored value at graph `r`, output `j`: the graph block's row against the first weight
    block, the first bias row added, cut at the float zero, then against the second weight block, the second bias row added. -/
theorem pay3_apply (v0 : Vec Ideal S256x192 .f32) (v3 : Vec Ideal S192x128 .f32) (v6 : Vec Ideal S1x128 .f32)
    (v13 : Vec Ideal S128x32 .f32) (v16 : Vec Ideal S1x32 .f32) (r : Fin 256) (j : Fin 32) :
    k3_pay1 (F := Ideal) v0 v3 v6 v13 v16 (ix2 r j)
      = Cert.Spec.readoutAt v0 v3 (fun m => v6 (ix2 (0 : Fin 1) m)) v13 (fun j => v16 (ix2 (0 : Fin 1) j)) r j := by
  unfold k3_pay1 Cert.Spec.readoutAt
  simp only [shapeCast_self]
  rw [addf_apply]
  refine congrArg₂ (· + ·) ?_ ?_
  · refine (Ideal.matmul_constant_zero_apply _ none _ _ _).trans ?_
    refine (PlainDot.contraction_eq_sum dot_S256x128_S128x32_S256x32_1_0_0_1_n_n rfl rfl
      (fun _ _ => rfl) (fun _ _ => rfl) (fun _ _ => rfl) (fun _ _ => rfl) _ _ r j).trans ?_
    refine Finset.sum_congr rfl fun m _ => congrArg (· * v13 (ix2 m j)) ?_
    unfold Cert.Spec.hiddenAt
    rw [truncf_apply, maximumf_apply, addf_apply]
    refine congrArg₂ max (congrArg₂ (· + ·) ?_ ?_) rfl
    · refine (Ideal.matmul_constant_zero_apply _ none _ _ _).trans ?_
      exact PlainDot.contraction_eq_sum dot_S256x192_S192x128_S256x128_1_0_0_1_n_n rfl rfl
        (fun _ _ => rfl) (fun _ _ => rfl) (fun _ _ => rfl) (fun _ _ => rfl) _ _ r m
    · exact broadcastTo_1b_ab_apply v6 _ r m
  · exact broadcastTo_1b_ab_apply v16 _ r j

end Cert.KernelIdeal.Pay

end
-- ==== Proof.KiVal0.lean ====
/-
  REGION 0'S OUTPUT ARRAY AS ONE FUNCTION OF THE ARRAYS IT IS ENTERED WITH, over the extended reals.
  The grid has twenty points; point `t` reads rows 5000·t … 5000·t + 4999 of the node and neighbour arrays and the
  whole of the three small operands, and writes back the same rows of the output.  What it writes is the layer's
  dense update of those rows, so — the twenty row blocks filling the array — the output array ends as the layer
  applied to the whole arrays.
-/
import proofs.«126898_j74603581932004_1_alg».proof.Proof.KiRegion0
import proofs.«126898_j74603581932004_1_alg».proof.Proof.KiPay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-- The layer applied to the arrays region 0 is entered with. -/
def G0 (c : Dev nD) : S100000x64.Idx → EReal :=
  Cert.Spec.layer (V c main_v17 (ix2 (0 : Fin 1) (0 : Fin 1))) (V c main_arg0) (V c main_v9) (V c main_v11)
    (fun j => V c main_v18 (ix2 (0 : Fin 1) j))

/-- The block indices over the grid: the two feature windows and the output move with the point down the rows, the
    three small operands stay at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t`, read at `(p, k)`, is its array at row `5000·t + p`, column `k`. -/
theorem rd0_0 (c : Dev nD) (t : Fin cfg0.N) (p : Fin 5000) (k : Fin 64) (i : S100000x64.Idx)
    (h0 : (i 0).val = t.val * 5000 + p.val) (h1 : (i 1).val = k.val) :
    iblk0 V c 0 t (ix2 p k) = V c main_arg0 i := by
  obtain ⟨e00, e01, e10, e11, e20, e21, e30, e31, e40, e41, e50, e51⟩ := idx0 t
  show V c main_arg0 (((cfg0.win 0).blk t).view.emb (ix2 p k)) = V c main_arg0 i
  refine congrArg (V c main_arg0) (funext fun a => Fin.ext ?_)
  match a with
  | ⟨0, _⟩ => show win0_0.index t (0 : Fin 2) * 5000 + 1 * p.val = (i 0).val; omega
  | ⟨1, _⟩ => show win0_0.index t (1 : Fin 2) * 64 + 1 * k.val = (i 1).val; omega

/-- Window 1's block at point `t`, read at `(p, k)`, is its array at row `5000·t + p`, column `k`. -/
theorem rd0_1 (c : Dev nD) (t : Fin cfg0.N) (p : Fin 5000) (k : Fin 64) (i : S100000x64.Idx)
    (h0 : (i 0).val = t.val * 5000 + p.val) (h1 : (i 1).val = k.val) :
    iblk0 V c 1 t (ix2 p k) = V c main_v9 i := by
  obtain ⟨e00, e01, e10, e11, e20, e21, e30, e31, e40, e41, e50, e51⟩ := idx0 t
  show V c main_v9 (((cfg0.win 1).blk t).view.emb (ix2 p k)) = V c main_v9 i
  refine congrArg (V c main_v9) (funext fun a => Fin.ext ?_)
  match a with
  | ⟨0, _⟩ => show win0_1.index t (0 : Fin 2) * 5000 + 1 * p.val = (i 0).val; omega
  | ⟨1, _⟩ => show win0_1.index t (1 : Fin 2) * 64 + 1 * k.val = (i 1).val; omega

/-- Window 2's block at point `t`, read at `(p, k)`, is its array at row `p`, column `k`. -/
theorem rd0_2 (c : Dev nD) (t : Fin cfg0.N) (p : Fin 1) (k : Fin 1) (i : S1x1.Idx)
    (h0 : (i 0).val = p.val) (h1 : (i 1).val = k.val) :
    iblk0 V c 2 t (ix2 p k) = V c main_v17 i := by
  obtain ⟨e00, e01, e10, e11, e20, e21, e30, e31, e40, e41, e50, e51⟩ := idx0 t
  show V c main_v17 (((cfg0.win 2).blk t).view.emb (ix2 p k)) = V c main_v17 i
  refine congrArg (V c main_v17) (funext fun a => Fin.ext ?_)
  match a with
  | ⟨0, _⟩ => show win0_2.index t (0 : Fin 2) * 1 + 1 * p.val = (i 0).val; omega
  | ⟨1, _⟩ => show win0_2.index t (1 : Fin 2) * 1 + 1 * k.val = (i 1).val; omega

/-- Window 3's block at point `t`, read at `(p, k)`, is its array at row `p`, column `k`. -/
theorem rd0_3 (c : Dev nD) (t : Fin cfg0.N) (p : Fin 64) (k : Fin 64) (i : S64x64.Idx)
    (h0 : (i 0).val = p.val) (h1 : (i 1).val = k.val) :
    iblk0 V c 3 t (ix2 p k) = V c main_v11 i := by
  obtain ⟨e00, e01, e10, e11, e20, e21, e30, e31, e40, e41, e50, e51⟩ := idx0 t
  show V c main_v11 (((cfg0.win 3).blk t).view.emb (ix2 p k)) = V c main_v11 i
  refine congrArg (V c main_v11) (funext fun a => Fin.ext ?_)
  match a with
  | ⟨0, _⟩ => show win0_3.index t (0 : Fin 2) * 64 + 1 * p.val = (i 0).val; omega
  | ⟨1, _⟩ => show win0_3.index t (1 : Fin 2) * 64 + 1 * k.val = (i 1).val; omega

/-- Window 4's block at point `t`, read at `(p, k)`, is its array at row `p`, column `k`. -/
theorem rd0_4 (c : Dev nD) (t : Fin cfg0.N) (p : Fin 1) (k : Fin 64) (i : S1x64.Idx)
    (h0 : (i 0).val = p.val) (h1 : (i 1).val = k.val) :
    iblk0 V c 4 t (ix2 p k) = V c main_v18 i := by
  obtain ⟨e00, e01, e10, e11, e20, e21, e30, e31, e40, e41, e50, e51⟩ := idx0 t
  show V c main_v18 (((cfg0.win 4).blk t).view.emb (ix2 p k)) = V c main_v18 i
  refine congrArg (V c main_v18) (funext fun a => Fin.ext ?_)
  match a with
  | ⟨0, _⟩ => show win0_4.index t (0 : Fin 2) * 1 + 1 * p.val = (i 0).val; omega
  | ⟨1, _⟩ => show win0_4.index t (1 : Fin 2) * 64 + 1 * k.val = (i 1).val; omega

/-- What point `t` writes back is block `t` of the layer of the entry arrays. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S1x1) hz0, View.ld_unit_zero (S := S64x64) hz0,
    View.ld_unit_zero (S := S1x64) hz0]
  funext j
  obtain ⟨p, q, rfl⟩ : ∃ (p : Fin 5000) (q : Fin 64), j = ix2 p q := ⟨j 0, j 1, eq_ix2 j⟩
  obtain ⟨e00, e01, e10, e11, e20, e21, e30, e31, e40, e41, e50, e51⟩ := idx0 t
  have hi0 : ((((cfg0.win 5).blk t).view.emb (ix2 p q)) 0).val = t.val * 5000 + p.val := by
    show win0_5.index t (0 : Fin 2) * 5000 + 1 * p.val = _; omega
  have hi1 : ((((cfg0.win 5).blk t).view.emb (ix2 p q)) 1).val = q.val := by
    show win0_5.index t (1 : Fin 2) * 64 + 1 * q.val = _; omega
  show k0_pay1 (F := Ideal) (iblk0 V c 2 t) (iblk0 V c 0 t) (iblk0 V c 1 t) (iblk0 V c 3 t) (iblk0 V c 4 t) (ix2 p q)
    = Cert.Spec.layerAt (V c main_v17 (ix2 (0 : Fin 1) (0 : Fin 1))) (V c main_arg0) (V c main_v9) (V c main_v11)
        (fun j => V c main_v18 (ix2 (0 : Fin 1) j)) ((((cfg0.win 5).blk t).view.emb (ix2 p q)) 0) ((((cfg0.win 5).blk t).view.emb (ix2 p q)) 1)
  refine (Pay.pay0_apply _ _ _ _ _ p q).trans ?_
  exact Cert.Spec.layerAt_congr (rd0_2 V c t 0 0 _ rfl rfl) (fun k => rd0_0 V c t p k _ hi0 rfl)
    (fun k => rd0_1 V c t p k _ hi0 rfl) (fun k => rd0_3 V c t k q _ rfl hi1) (rd0_4 V c t 0 q _ rfl hi1)

/-- An index of the output array is in point `t`'s block iff each coordinate is in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v19).slice (win0_5.rect t)).set ↔ _
  rw [View.set_slice_whole, Rect.mem_set_unit]
  exact Iff.rfl

/-- Every row is in the block of the point numbered by its quotient by 5000. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk0]
  obtain ⟨e00, e01, e10, e11, e20, e21, e30, e31, e40, e41, e50, e51⟩ := idx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e51]; omega

/-- The output array after the region: the layer of the entry arrays. -/
theorem final0 (c : Dev nD) : (dat0 V c).arrAt 5 cfg0.N = G0 V c :=
  (dat0 V c).arrAt_eq_of_cover 5 (G0 V c) (fun t _ => flushed0_eq V c t) (cover0)

end Cert.KernelIdeal.Val

end
-- ==== Proof.KiVal1.lean ====
/-
  REGION 1'S OUTPUT ARRAY AS ONE FUNCTION OF THE ARRAYS IT IS ENTERED WITH, over the extended reals.
  The grid has twenty points; point `t` reads rows 5000·t … 5000·t + 4999 of the node and neighbour arrays and the
  whole of the three small operands, and writes back the same rows of the output.  What it writes is the layer's
  dense update of those rows, so — the twenty row blocks filling the array — the output array ends as the layer
  applied to the whole arrays.
-/
import proofs.«126898_j74603581932004_1_alg».proof.Proof.KiRegion1
import proofs.«126898_j74603581932004_1_alg».proof.Proof.KiPay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz1 : (![0, 0] : Fin 2 → Nat) = fun _ => 0 := funext fun a => by fin_cases a <;> rfl

/-- The layer applied to the arrays region 1 is entered with. -/
def G1 (c : Dev nD) : S100000x64.Idx → EReal :=
  Cert.Spec.layer (V c main_v37 (ix2 (0 : Fin 1) (0 : Fin 1))) (V c main_v19) (V c main_v29) (V c main_v31)
    (fun j => V c main_v38 (ix2 (0 : Fin 1) j))

/-- The block indices over the grid: the two feature windows and the output move with the point down the rows, the
    three small operands stay at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t`, read at `(p, k)`, is its array at row `5000·t + p`, column `k`. -/
theorem rd1_0 (c : Dev nD) (t : Fin cfg1.N) (p : Fin 5000) (k : Fin 64) (i : S100000x64.Idx)
    (h0 : (i 0).val = t.val * 5000 + p.val) (h1 : (i 1).val = k.val) :
    iblk1 V c 0 t (ix2 p k) = V c main_v19 i := by
  obtain ⟨e00, e01, e10, e11, e20, e21, e30, e31, e40, e41, e50, e51⟩ := idx1 t
  show V c main_v19 (((cfg1.win 0).blk t).view.emb (ix2 p k)) = V c main_v19 i
  refine congrArg (V c main_v19) (funext fun a => Fin.ext ?_)
  match a with
  | ⟨0, _⟩ => show win1_0.index t (0 : Fin 2) * 5000 + 1 * p.val = (i 0).val; omega
  | ⟨1, _⟩ => show win1_0.index t (1 : Fin 2) * 64 + 1 * k.val = (i 1).val; omega

/-- Window 1's block at point `t`, read at `(p, k)`, is its array at row `5000·t + p`, column `k`. -/
theorem rd1_1 (c : Dev nD) (t : Fin cfg1.N) (p : Fin 5000) (k : Fin 64) (i : S100000x64.Idx)
    (h0 : (i 0).val = t.val * 5000 + p.val) (h1 : (i 1).val = k.val) :
    iblk1 V c 1 t (ix2 p k) = V c main_v29 i := by
  obtain ⟨e00, e01, e10, e11, e20, e21, e30, e31, e40, e41, e50, e51⟩ := idx1 t
  show V c main_v29 (((cfg1.win 1).blk t).view.emb (ix2 p k)) = V c main_v29 i
  refine congrArg (V c main_v29) (funext fun a => Fin.ext ?_)
  match a with
  | ⟨0, _⟩ => show win1_1.index t (0 : Fin 2) * 5000 + 1 * p.val = (i 0).val; omega
  | ⟨1, _⟩ => show win1_1.index t (1 : Fin 2) * 64 + 1 * k.val = (i 1).val; omega

/-- Window 2's block at point `t`, read at `(p, k)`, is its array at row `p`, column `k`. -/
theorem rd1_2 (c : Dev nD) (t : Fin cfg1.N) (p : Fin 1) (k : Fin 1) (i : S1x1.Idx)
    (h0 : (i 0).val = p.val) (h1 : (i 1).val = k.val) :
    iblk1 V c 2 t (ix2 p k) = V c main_v37 i := by
  obtain ⟨e00, e01, e10, e11, e20, e21, e30, e31, e40, e41, e50, e51⟩ := idx1 t
  show V c main_v37 (((cfg1.win 2).blk t).view.emb (ix2 p k)) = V c main_v37 i
  refine congrArg (V c main_v37) (funext fun a => Fin.ext ?_)
  match a with
  | ⟨0, _⟩ => show win1_2.index t (0 : Fin 2) * 1 + 1 * p.val = (i 0).val; omega
  | ⟨1, _⟩ => show win1_2.index t (1 : Fin 2) * 1 + 1 * k.val = (i 1).val; omega

/-- Window 3's block at point `t`, read at `(p, k)`, is its array at row `p`, column `k`. -/
theorem rd1_3 (c : Dev nD) (t : Fin cfg1.N) (p : Fin 64) (k : Fin 64) (i : S64x64.Idx)
    (h0 : (i 0).val = p.val) (h1 : (i 1).val = k.val) :
    iblk1 V c 3 t (ix2 p k) = V c main_v31 i := by
  obtain ⟨e00, e01, e10, e11, e20, e21, e30, e31, e40, e41, e50, e51⟩ := idx1 t
  show V c main_v31 (((cfg1.win 3).blk t).view.emb (ix2 p k)) = V c main_v31 i
  refine congrArg (V c main_v31) (funext fun a => Fin.ext ?_)
  match a with
  | ⟨0, _⟩ => show win1_3.index t (0 : Fin 2) * 64 + 1 * p.val = (i 0).val; omega
  | ⟨1, _⟩ => show win1_3.index t (1 : Fin 2) * 64 + 1 * k.val = (i 1).val; omega

/-- Window 4's block at point `t`, read at `(p, k)`, is its array at row `p`, column `k`. -/
theorem rd1_4 (c : Dev nD) (t : Fin cfg1.N) (p : Fin 1) (k : Fin 64) (i : S1x64.Idx)
    (h0 : (i 0).val = p.val) (h1 : (i 1).val = k.val) :
    iblk1 V c 4 t (ix2 p k) = V c main_v38 i := by
  obtain ⟨e00, e01, e10, e11, e20, e21, e30, e31, e40, e41, e50, e51⟩ := idx1 t
  show V c main_v38 (((cfg1.win 4).blk t).view.emb (ix2 p k)) = V c main_v38 i
  refine congrArg (V c main_v38) (funext fun a => Fin.ext ?_)
  match a with
  | ⟨0, _⟩ => show win1_4.index t (0 : Fin 2) * 1 + 1 * p.val = (i 0).val; omega
  | ⟨1, _⟩ => show win1_4.index t (1 : Fin 2) * 64 + 1 * k.val = (i 1).val; omega

/-- What point `t` writes back is block `t` of the layer of the entry arrays. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S1x1) hz1, View.ld_unit_zero (S := S64x64) hz1,
    View.ld_unit_zero (S := S1x64) hz1]
  funext j
  obtain ⟨p, q, rfl⟩ : ∃ (p : Fin 5000) (q : Fin 64), j = ix2 p q := ⟨j 0, j 1, eq_ix2 j⟩
  obtain ⟨e00, e01, e10, e11, e20, e21, e30, e31, e40, e41, e50, e51⟩ := idx1 t
  have hi0 : ((((cfg1.win 5).blk t).view.emb (ix2 p q)) 0).val = t.val * 5000 + p.val := by
    show win1_5.index t (0 : Fin 2) * 5000 + 1 * p.val = _; omega
  have hi1 : ((((cfg1.win 5).blk t).view.emb (ix2 p q)) 1).val = q.val := by
    show win1_5.index t (1 : Fin 2) * 64 + 1 * q.val = _; omega
  show k1_pay1 (F := Ideal) (iblk1 V c 2 t) (iblk1 V c 0 t) (iblk1 V c 1 t) (iblk1 V c 3 t) (iblk1 V c 4 t) (ix2 p q)
    = Cert.Spec.layerAt (V c main_v37 (ix2 (0 : Fin 1) (0 : Fin 1))) (V c main_v19) (V c main_v29) (V c main_v31)
        (fun j => V c main_v38 (ix2 (0 : Fin 1) j)) ((((cfg1.win 5).blk t).view.emb (ix2 p q)) 0) ((((cfg1.win 5).blk t).view.emb (ix2 p q)) 1)
  refine (Pay.pay1_apply _ _ _ _ _ p q).trans ?_
  exact Cert.Spec.layerAt_congr (rd1_2 V c t 0 0 _ rfl rfl) (fun k => rd1_0 V c t p k _ hi0 rfl)
    (fun k => rd1_1 V c t p k _ hi0 rfl) (fun k => rd1_3 V c t k q _ rfl hi1) (rd1_4 V c t 0 q _ rfl hi1)

/-- An index of the output array is in point `t`'s block iff each coordinate is in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Every row is in the block of the point numbered by its quotient by 5000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk1]
  obtain ⟨e00, e01, e10, e11, e20, e21, e30, e31, e40, e41, e50, e51⟩ := idx1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e51]; omega

/-- The output array after the region: the layer of the entry arrays. -/
theorem final1 (c : Dev nD) : (dat1 V c).arrAt 5 cfg1.N = G1 V c :=
  (dat1 V c).arrAt_eq_of_cover 5 (G1 V c) (fun t _ => flushed1_eq V c t) (cover1)

end Cert.KernelIdeal.Val

end
-- ==== Proof.KiVal2.lean ====
/-
  REGION 2'S OUTPUT ARRAY AS ONE FUNCTION OF THE ARRAYS IT IS ENTERED WITH, over the extended reals.
  The grid has twenty points; point `t` reads rows 5000·t … 5000·t + 4999 of the node and neighbour arrays and the
  whole of the three small operands, and writes back the same rows of the output.  What it writes is the layer's
  dense update of those rows, so — the twenty row blocks filling the array — the output array ends as the layer
  applied to the whole arrays.
-/
import proofs.«126898_j74603581932004_1_alg».proof.Proof.KiRegion2
import proofs.«126898_j74603581932004_1_alg».proof.Proof.KiPay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The layer applied to the arrays region 2 is entered with. -/
def G2 (c : Dev nD) : S100000x64.Idx → EReal :=
  Cert.Spec.layer (V c main_v57 (ix2 (0 : Fin 1) (0 : Fin 1))) (V c main_v39) (V c main_v49) (V c main_v51)
    (fun j => V c main_v58 (ix2 (0 : Fin 1) j))

/-- The block indices over the grid: the two feature windows and the output move with the point down the rows, the
    three small operands stay at their one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t`, read at `(p, k)`, is its array at row `5000·t + p`, column `k`. -/
theorem rd2_0 (c : Dev nD) (t : Fin cfg2.N) (p : Fin 5000) (k : Fin 64) (i : S100000x64.Idx)
    (h0 : (i 0).val = t.val * 5000 + p.val) (h1 : (i 1).val = k.val) :
    iblk2 V c 0 t (ix2 p k) = V c main_v39 i := by
  obtain ⟨e00, e01, e10, e11, e20, e21, e30, e31, e40, e41, e50, e51⟩ := idx2 t
  show V c main_v39 (((cfg2.win 0).blk t).view.emb (ix2 p k)) = V c main_v39 i
  refine congrArg (V c main_v39) (funext fun a => Fin.ext ?_)
  match a with
  | ⟨0, _⟩ => show win2_0.index t (0 : Fin 2) * 5000 + 1 * p.val = (i 0).val; omega
  | ⟨1, _⟩ => show win2_0.index t (1 : Fin 2) * 64 + 1 * k.val = (i 1).val; omega

/-- Window 1's block at point `t`, read at `(p, k)`, is its array at row `5000·t + p`, column `k`. -/
theorem rd2_1 (c : Dev nD) (t : Fin cfg2.N) (p : Fin 5000) (k : Fin 64) (i : S100000x64.Idx)
    (h0 : (i 0).val = t.val * 5000 + p.val) (h1 : (i 1).val = k.val) :
    iblk2 V c 1 t (ix2 p k) = V c main_v49 i := by
  obtain ⟨e00, e01, e10, e11, e20, e21, e30, e31, e40, e41, e50, e51⟩ := idx2 t
  show V c main_v49 (((cfg2.win 1).blk t).view.emb (ix2 p k)) = V c main_v49 i
  refine congrArg (V c main_v49) (funext fun a => Fin.ext ?_)
  match a with
  | ⟨0, _⟩ => show win2_1.index t (0 : Fin 2) * 5000 + 1 * p.val = (i 0).val; omega
  | ⟨1, _⟩ => show win2_1.index t (1 : Fin 2) * 64 + 1 * k.val = (i 1).val; omega

/-- Window 2's block at point `t`, read at `(p, k)`, is its array at row `p`, column `k`. -/
theorem rd2_2 (c : Dev nD) (t : Fin cfg2.N) (p : Fin 1) (k : Fin 1) (i : S1x1.Idx)
    (h0 : (i 0).val = p.val) (h1 : (i 1).val = k.val) :
    iblk2 V c 2 t (ix2 p k) = V c main_v57 i := by
  obtain ⟨e00, e01, e10, e11, e20, e21, e30, e31, e40, e41, e50, e51⟩ := idx2 t
  show V c main_v57 (((cfg2.win 2).blk t).view.emb (ix2 p k)) = V c main_v57 i
  refine congrArg (V c main_v57) (funext fun a => Fin.ext ?_)
  match a with
  | ⟨0, _⟩ => show win2_2.index t (0 : Fin 2) * 1 + 1 * p.val = (i 0).val; omega
  | ⟨1, _⟩ => show win2_2.index t (1 : Fin 2) * 1 + 1 * k.val = (i 1).val; omega

/-- Window 3's block at point `t`, read at `(p, k)`, is its array at row `p`, column `k`. -/
theorem rd2_3 (c : Dev nD) (t : Fin cfg2.N) (p : Fin 64) (k : Fin 64) (i : S64x64.Idx)
    (h0 : (i 0).val = p.val) (h1 : (i 1).val = k.val) :
    iblk2 V c 3 t (ix2 p k) = V c main_v51 i := by
  obtain ⟨e00, e01, e10, e11, e20, e21, e30, e31, e40, e41, e50, e51⟩ := idx2 t
  show V c main_v51 (((cfg2.win 3).blk t).view.emb (ix2 p k)) = V c main_v51 i
  refine congrArg (V c main_v51) (funext fun a => Fin.ext ?_)
  match a with
  | ⟨0, _⟩ => show win2_3.index t (0 : Fin 2) * 64 + 1 * p.val = (i 0).val; omega
  | ⟨1, _⟩ => show win2_3.index t (1 : Fin 2) * 64 + 1 * k.val = (i 1).val; omega

/-- Window 4's block at point `t`, read at `(p, k)`, is its array at row `p`, column `k`. -/
theorem rd2_4 (c : Dev nD) (t : Fin cfg2.N) (p : Fin 1) (k : Fin 64) (i : S1x64.Idx)
    (h0 : (i 0).val = p.val) (h1 : (i 1).val = k.val) :
    iblk2 V c 4 t (ix2 p k) = V c main_v58 i := by
  obtain ⟨e00, e01, e10, e11, e20, e21, e30, e31, e40, e41, e50, e51⟩ := idx2 t
  show V c main_v58 (((cfg2.win 4).blk t).view.emb (ix2 p k)) = V c main_v58 i
  refine congrArg (V c main_v58) (funext fun a => Fin.ext ?_)
  match a with
  | ⟨0, _⟩ => show win2_4.index t (0 : Fin 2) * 1 + 1 * p.val = (i 0).val; omega
  | ⟨1, _⟩ => show win2_4.index t (1 : Fin 2) * 64 + 1 * k.val = (i 1).val; omega

/-- What point `t` writes back is block `t` of the layer of the entry arrays. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S1x1) hz2, View.ld_unit_zero (S := S64x64) hz2,
    View.ld_unit_zero (S := S1x64) hz2]
  funext j
  obtain ⟨p, q, rfl⟩ : ∃ (p : Fin 5000) (q : Fin 64), j = ix2 p q := ⟨j 0, j 1, eq_ix2 j⟩
  obtain ⟨e00, e01, e10, e11, e20, e21, e30, e31, e40, e41, e50, e51⟩ := idx2 t
  have hi0 : ((((cfg2.win 5).blk t).view.emb (ix2 p q)) 0).val = t.val * 5000 + p.val := by
    show win2_5.index t (0 : Fin 2) * 5000 + 1 * p.val = _; omega
  have hi1 : ((((cfg2.win 5).blk t).view.emb (ix2 p q)) 1).val = q.val := by
    show win2_5.index t (1 : Fin 2) * 64 + 1 * q.val = _; omega
  show k2_pay1 (F := Ideal) (iblk2 V c 2 t) (iblk2 V c 0 t) (iblk2 V c 1 t) (iblk2 V c 3 t) (iblk2 V c 4 t) (ix2 p q)
    = Cert.Spec.layerAt (V c main_v57 (ix2 (0 : Fin 1) (0 : Fin 1))) (V c main_v39) (V c main_v49) (V c main_v51)
        (fun j => V c main_v58 (ix2 (0 : Fin 1) j)) ((((cfg2.win 5).blk t).view.emb (ix2 p q)) 0) ((((cfg2.win 5).blk t).view.emb (ix2 p q)) 1)
  refine (Pay.pay2_apply _ _ _ _ _ p q).trans ?_
  exact Cert.Spec.layerAt_congr (rd2_2 V c t 0 0 _ rfl rfl) (fun k => rd2_0 V c t p k _ hi0 rfl)
    (fun k => rd2_1 V c t p k _ hi0 rfl) (fun k => rd2_3 V c t k q _ rfl hi1) (rd2_4 V c t 0 q _ rfl hi1)

/-- An index of the output array is in point `t`'s block iff each coordinate is in the block's range. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v59).slice (win2_5.rect t)).set ↔ _
  rw [View.set_slice_whole, Rect.mem_set_unit]
  exact Iff.rfl

/-- Every row is in the block of the point numbered by its quotient by 5000. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_5 _, ?_⟩
  rw [mem_blk2]
  obtain ⟨e00, e01, e10, e11, e20, e21, e30, e31, e40, e41, e50, e51⟩ := idx2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e51]; omega

/-- The output array after the region: the layer of the entry arrays. -/
theorem final2 (c : Dev nD) : (dat2 V c).arrAt 5 cfg2.N = G2 V c :=
  (dat2 V c).arrAt_eq_of_cover 5 (G2 V c) (fun t _ => flushed2_eq V c t) (cover2)

end Cert.KernelIdeal.Val

end
-- ==== Proof.KiVal3.lean ====
/-
  THE READ-OUT REGION'S OUTPUT ARRAY AS ONE FUNCTION OF THE ARRAYS IT IS ENTERED WITH, over the extended reals.
  The grid has one point, every window's block is its whole array, and the body stores the two-layer read-out of the
  loaded arrays over the whole output; so the output array ends as the read-out of the entry arrays.
-/
import proofs.«126898_j74603581932004_1_alg».proof.Proof.KiRegion3
import proofs.«126898_j74603581932004_1_alg».proof.Proof.KiPay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz3 : (![0, 0] : Fin 2 → Nat) = fun _ => 0 := funext fun a => by fin_cases a <;> rfl

/-- The read-out applied to the arrays the region is entered with. -/
def G3 (c : Dev nD) : S256x32.Idx → EReal :=
  Cert.Spec.readout (V c main_v67) (V c main_arg4) (fun m => V c main_v68 (ix2 (0 : Fin 1) m)) (V c main_arg6)
    (fun j => V c main_v69 (ix2 (0 : Fin 1) j))

/-- Every window sits at its one block. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-! A window's block read at `(p, k)` is its array at `(p, k)`. -/

theorem rd3_0 (c : Dev nD) (t : Fin cfg3.N) (p : Fin 256) (k : Fin 192) (i : S256x192.Idx)
    (h0 : (i 0).val = p.val) (h1 : (i 1).val = k.val) :
    iblk3 V c 0 t (ix2 p k) = V c main_v67 i := by
  obtain ⟨e00, e01, e10, e11, e20, e21, e30, e31, e40, e41, e50, e51⟩ := idx3 t
  show V c main_v67 (((cfg3.win 0).blk t).view.emb (ix2 p k)) = V c main_v67 i
  refine congrArg (V c main_v67) (funext fun a => Fin.ext ?_)
  match a with
  | ⟨0, _⟩ => show win3_0.index t (0 : Fin 2) * 256 + 1 * p.val = (i 0).val; omega
  | ⟨1, _⟩ => show win3_0.index t (1 : Fin 2) * 192 + 1 * k.val = (i 1).val; omega

theorem rd3_1 (c : Dev nD) (t : Fin cfg3.N) (p : Fin 192) (k : Fin 128) (i : S192x128.Idx)
    (h0 : (i 0).val = p.val) (h1 : (i 1).val = k.val) :
    iblk3 V c 1 t (ix2 p k) = V c main_arg4 i := by
  obtain ⟨e00, e01, e10, e11, e20, e21, e30, e31, e40, e41, e50, e51⟩ := idx3 t
  show V c main_arg4 (((cfg3.win 1).blk t).view.emb (ix2 p k)) = V c main_arg4 i
  refine congrArg (V c main_arg4) (funext fun a => Fin.ext ?_)
  match a with
  | ⟨0, _⟩ => show win3_1.index t (0 : Fin 2) * 192 + 1 * p.val = (i 0).val; omega
  | ⟨1, _⟩ => show win3_1.index t (1 : Fin 2) * 128 + 1 * k.val = (i 1).val; omega

theorem rd3_2 (c : Dev nD) (t : Fin cfg3.N) (p : Fin 1) (k : Fin 128) (i : S1x128.Idx)
    (h0 : (i 0).val = p.val) (h1 : (i 1).val = k.val) :
    iblk3 V c 2 t (ix2 p k) = V c main_v68 i := by
  obtain ⟨e00, e01, e10, e11, e20, e21, e30, e31, e40, e41, e50, e51⟩ := idx3 t
  show V c main_v68 (((cfg3.win 2).blk t).view.emb (ix2 p k)) = V c main_v68 i
  refine congrArg (V c main_v68) (funext fun a => Fin.ext ?_)
  match a with
  | ⟨0, _⟩ => show win3_2.index t (0 : Fin 2) * 1 + 1 * p.val = (i 0).val; omega
  | ⟨1, _⟩ => show win3_2.index t (1 : Fin 2) * 128 + 1 * k.val = (i 1).val; omega

theorem rd3_3 (c : Dev nD) (t : Fin cfg3.N) (p : Fin 128) (k : Fin 32) (i : S128x32.Idx)
    (h0 : (i 0).val = p.val) (h1 : (i 1).val = k.val) :
    iblk3 V c 3 t (ix2 p k) = V c main_arg6 i := by
  obtain ⟨e00, e01, e10, e11, e20, e21, e30, e31, e40, e41, e50, e51⟩ := idx3 t
  show V c main_arg6 (((cfg3.win 3).blk t).view.emb (ix2 p k)) = V c main_arg6 i
  refine congrArg (V c main_arg6) (funext fun a => Fin.ext ?_)
  match a with
  | ⟨0, _⟩ => show win3_3.index t (0 : Fin 2) * 128 + 1 * p.val = (i 0).val; omega
  | ⟨1, _⟩ => show win3_3.index t (1 : Fin 2) * 32 + 1 * k.val = (i 1).val; omega

theorem rd3_4 (c : Dev nD) (t : Fin cfg3.N) (p : Fin 1) (k : Fin 32) (i : S1x32.Idx)
    (h0 : (i 0).val = p.val) (h1 : (i 1).val = k.val) :
    iblk3 V c 4 t (ix2 p k) = V c main_v69 i := by
  obtain ⟨e00, e01, e10, e11, e20, e21, e30, e31, e40, e41, e50, e51⟩ := idx3 t
  show V c main_v69 (((cfg3.win 4).blk t).view.emb (ix2 p k)) = V c main_v69 i
  refine congrArg (V c main_v69) (funext fun a => Fin.ext ?_)
  match a with
  | ⟨0, _⟩ => show win3_4.index t (0 : Fin 2) * 1 + 1 * p.val = (i 0).val; omega
  | ⟨1, _⟩ => show win3_4.index t (1 : Fin 2) * 32 + 1 * k.val = (i 1).val; omega

/-- What the one point writes back is the (whole) block of the read-out of the entry arrays. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S256x192) hz3, View.ld_unit_zero (S := S192x128) hz3, View.ld_unit_zero (S := S1x128) hz3,
    View.ld_unit_zero (S := S128x32) hz3, View.ld_unit_zero (S := S1x32) hz3]
  funext j
  obtain ⟨p, q, rfl⟩ : ∃ (p : Fin 256) (q : Fin 32), j = ix2 p q := ⟨j 0, j 1, eq_ix2 j⟩
  obtain ⟨e00, e01, e10, e11, e20, e21, e30, e31, e40, e41, e50, e51⟩ := idx3 t
  have hi0 : ((((cfg3.win 5).blk t).view.emb (ix2 p q)) 0).val = p.val := by
    show win3_5.index t (0 : Fin 2) * 256 + 1 * p.val = _; omega
  have hi1 : ((((cfg3.win 5).blk t).view.emb (ix2 p q)) 1).val = q.val := by
    show win3_5.index t (1 : Fin 2) * 32 + 1 * q.val = _; omega
  show k3_pay1 (F := Ideal) (iblk3 V c 0 t) (iblk3 V c 1 t) (iblk3 V c 2 t) (iblk3 V c 3 t) (iblk3 V c 4 t) (ix2 p q)
    = Cert.Spec.readoutAt (V c main_v67) (V c main_arg4) (fun m => V c main_v68 (ix2 (0 : Fin 1) m)) (V c main_arg6)
        (fun j => V c main_v69 (ix2 (0 : Fin 1) j)) ((((cfg3.win 5).blk t).view.emb (ix2 p q)) 0) ((((cfg3.win 5).blk t).view.emb (ix2 p q)) 1)
  refine (Pay.pay3_apply _ _ _ _ _ p q).trans ?_
  exact Cert.Spec.readoutAt_congr (fun k => rd3_0 V c t p k _ hi0 rfl) (fun k m => rd3_1 V c t k m _ rfl rfl)
    (fun m => rd3_2 V c t 0 m _ rfl rfl) (fun m => rd3_3 V c t m q _ rfl hi1) (rd3_4 V c t 0 q _ rfl hi1)

theorem mem_blk3 (t : Fin cfg3.N) (i : S256x32.Idx) :
    i ∈ ((cfg3.win 5).blk t).view.set ↔ ∀ a : Fin 2, win3_5.index t a * S256x32.size a ≤ (i a).val ∧ (i a).val < win3_5.index t a * S256x32.size a + S256x32.size a := by
  show i ∈ ((View.whole main_v70).slice (win3_5.rect t)).set ↔ _
  rw [View.set_slice_whole, Rect.mem_set_unit]
  exact Iff.rfl

theorem cover3 (i : S256x32.Idx) : ∃ t : Fin cfg3.N, (cfg3.win 5).flush t = true ∧ i ∈ ((cfg3.win 5).blk t).view.set := by
  have hi0 : (i 0).val < 256 := (i 0).isLt
  have hi1 : (i 1).val < 32 := (i 1).isLt
  refine ⟨t3_0, flush3_5 _, ?_⟩
  rw [mem_blk3]
  obtain ⟨e00, e01, e10, e11, e20, e21, e30, e31, e40, e41, e50, e51⟩ := idx3 t3_0
  intro a
  match a with
  | ⟨0, _⟩ =>
    show win3_5.index _ (0 : Fin 2) * 256 ≤ (i 0).val ∧ (i 0).val < win3_5.index _ (0 : Fin 2) * 256 + 256
    rw [e50]; omega
  | ⟨1, _⟩ =>
    show win3_5.index _ (1 : Fin 2) * 32 ≤ (i 1).val ∧ (i 1).val < win3_5.index _ (1 : Fin 2) * 32 + 32
    rw [e51]; omega

/-- The output array after the region: the read-out of the entry arrays. -/
theorem final3 (c : Dev nD) : (dat3 V c).arrAt 5 cfg3.N = G3 V c :=
  (dat3 V c).arrAt_eq_of_cover 5 (G3 V c) (fun t _ => flushed3_eq V c t) (cover3)

end Cert.KernelIdeal.Val

end
-- ==== Proof.RefNet.lean ====
/-
  THE REFERENCE'S RESULT AS THE NETWORK FUNCTION OF ITS ARGUMENTS, over the extended reals.

  The reference is three message-passing layers, a per-graph pooling of the three layers' outputs, and a two-layer
  read-out.  The parts that move data by index — the neighbour aggregation (a gather along the edge sources scattered
  and summed at the edge targets), the slices of the stacked parameters, the pooling (a scatter-sum over graph ids of
  the stacked layer outputs) — are kept as named functions of their operands and never opened: the kernel's program
  applies the very same operations.  The dense parts are identified with the specification's index-wise
  expressions: a layer is  max (((1+ε)·h + agg) W + b) 0, the read-out  max (g W1 + b1) 0 · W2 + b2.
-/
import proofs.«126898_j74603581932004_1_alg».proof.Proof.Gen.ReferenceIdeal.Run
import proofs.«126898_j74603581932004_1_alg».proof.Proof.LayerSpec
import proofs.«126898_j74603581932004_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.Net

open Cert.ReferenceIdeal Idealize.ShloMosaic Idealize.ShloMosaic.TcCoe Idealize.SL.Sem Idealize.ShloMosaic.StableHlo
open Idealize.ShloMosaic.ValueIdx Idealize.ShloMosaic.Pipeline
open Cert.ReferenceIdeal.Gen

/-! ## The data-moving parts, named -/

/-- Neighbour aggregation: the rows of `h` at the (wrapped) edge sources, summed into the rows at the edge targets. -/
def agg (h : (⟨S100000x64, .f32⟩ : BufTy).Contents (Elt Ideal)) (src dst : (⟨S1200000, .i32⟩ : BufTy).Contents (Elt Ideal)) : (⟨S100000x64, .f32⟩ : BufTy).Contents (Elt Ideal) :=
  Host.scatterAdd (F := Ideal) scatter_S100000x64_S1200000x1_S1200000x64_1_0_0_1 (broadcastInDim S100000x64 ![] bcast_S_S100000x64 (constant (F := Ideal) S_ .f32 0x00000000#32)) (broadcastInDim S1200000x1 ![0] bcast_S1200000_S1200000x1_0 dst) (Host.gather gather_S100000x64_S1200000x1_S1200000x64_1_0_n_n_0_1_164 h (broadcastInDim S1200000x1 ![0] bcast_S1200000_S1200000x1_0 (select (cmpi .slt src (broadcastInDim S1200000 ![] bcast_S_S1200000 (constantI S_ 32 0#32))) (addi src (broadcastInDim S1200000 ![] bcast_S_S1200000 (constantI S_ 32 100000#32))) src)))

/-! Layer `l`'s scalar (one plus its epsilon), weight and bias, sliced out of the stacked parameters. -/
def sc0 (eps : (⟨S3, .f32⟩ : BufTy).Contents (Elt Ideal)) : (⟨S_, .f32⟩ : BufTy).Contents (Elt Ideal) :=
  addf (constant (F := Ideal) S_ .f32 0x3F800000#32) (shapeCast _ (extractStridedSlice S1 ![0] eps slices_S3_S1_0) shapeCasts_S1_S_)
def wt0 (gW : (⟨S3x64x64, .f32⟩ : BufTy).Contents (Elt Ideal)) : (⟨S64x64, .f32⟩ : BufTy).Contents (Elt Ideal) :=
  shapeCast _ (extractStridedSlice S1x64x64 ![0, 0, 0] gW slices_S3x64x64_S1x64x64_0_0_0) shapeCasts_S1x64x64_S64x64
def bs0 (gb : (⟨S3x64, .f32⟩ : BufTy).Contents (Elt Ideal)) : (⟨S64, .f32⟩ : BufTy).Contents (Elt Ideal) :=
  shapeCast _ (extractStridedSlice S1x64 ![0, 0] gb slices_S3x64_S1x64_0_0) shapeCasts_S1x64_S64
def sc1 (eps : (⟨S3, .f32⟩ : BufTy).Contents (Elt Ideal)) : (⟨S_, .f32⟩ : BufTy).Contents (Elt Ideal) :=
  addf (constant (F := Ideal) S_ .f32 0x3F800000#32) (shapeCast _ (extractStridedSlice S1 ![1] eps slices_S3_S1_1) shapeCasts_S1_S_)
def wt1 (gW : (⟨S3x64x64, .f32⟩ : BufTy).Contents (Elt Ideal)) : (⟨S64x64, .f32⟩ : BufTy).Contents (Elt Ideal) :=
  shapeCast _ (extractStridedSlice S1x64x64 ![1, 0, 0] gW slices_S3x64x64_S1x64x64_1_0_0) shapeCasts_S1x64x64_S64x64
def bs1 (gb : (⟨S3x64, .f32⟩ : BufTy).Contents (Elt Ideal)) : (⟨S64, .f32⟩ : BufTy).Contents (Elt Ideal) :=
  shapeCast _ (extractStridedSlice S1x64 ![1, 0] gb slices_S3x64_S1x64_1_0) shapeCasts_S1x64_S64
def sc2 (eps : (⟨S3, .f32⟩ : BufTy).Contents (Elt Ideal)) : (⟨S_, .f32⟩ : BufTy).Contents (Elt Ideal) :=
  addf (constant (F := Ideal) S_ .f32 0x3F800000#32) (shapeCast _ (extractStridedSlice S1 ![2] eps slices_S3_S1_2) shapeCasts_S1_S_)
def wt2 (gW : (⟨S3x64x64, .f32⟩ : BufTy).Contents (Elt Ideal)) : (⟨S64x64, .f32⟩ : BufTy).Contents (Elt Ideal) :=
  shapeCast _ (extractStridedSlice S1x64x64 ![2, 0, 0] gW slices_S3x64x64_S1x64x64_2_0_0) shapeCasts_S1x64x64_S64x64
def bs2 (gb : (⟨S3x64, .f32⟩ : BufTy).Contents (Elt Ideal)) : (⟨S64, .f32⟩ : BufTy).Contents (Elt Ideal) :=
  shapeCast _ (extractStridedSlice S1x64 ![2, 0] gb slices_S3x64_S1x64_2_0) shapeCasts_S1x64_S64

/-- The pooling: the three layers' outputs stacked per node and summed per graph id, flattened per graph. -/
def pool (h1 h2 h3 : (⟨S100000x64, .f32⟩ : BufTy).Contents (Elt Ideal)) (gids : (⟨S100000, .i32⟩ : BufTy).Contents (Elt Ideal)) : (⟨S256x192, .f32⟩ : BufTy).Contents (Elt Ideal) :=
  shapeCast _ (Host.scatterAdd (F := Ideal) scatter_S256x3x64_S100000x1_S100000x3x64_12_0_0_1 (broadcastInDim S256x3x64 ![] bcast_S_S256x3x64 (constant (F := Ideal) S_ .f32 0x00000000#32)) (broadcastInDim S100000x1 ![0] bcast_S100000_S100000x1_0 gids) (concatenate S100000x3x64 1 [⟨S100000x1x64, (broadcastInDim S100000x1x64 ![0, 2] bcast_S100000x64_S100000x1x64_0_2 h1)⟩, ⟨S100000x1x64, (broadcastInDim S100000x1x64 ![0, 2] bcast_S100000x64_S100000x1x64_0_2 h2)⟩, ⟨S100000x1x64, (broadcastInDim S100000x1x64 ![0, 2] bcast_S100000x64_S100000x1x64_0_2 h3)⟩] concatenates_S100000x1x64_S100000x1x64_S100000x1x64_S100000x3x64_d1)) shapeCasts_S256x3x64_S256x192

/-! ## The network -/

/-- The node features after the first, second and third layer. -/
def feat1 (x : (⟨S100000x64, .f32⟩ : BufTy).Contents (Elt Ideal)) (gW : (⟨S3x64x64, .f32⟩ : BufTy).Contents (Elt Ideal)) (gb : (⟨S3x64, .f32⟩ : BufTy).Contents (Elt Ideal)) (eps : (⟨S3, .f32⟩ : BufTy).Contents (Elt Ideal))
    (src dst : (⟨S1200000, .i32⟩ : BufTy).Contents (Elt Ideal)) : (⟨S100000x64, .f32⟩ : BufTy).Contents (Elt Ideal) :=
  Cert.Spec.layer (sc0 eps ix0) x (agg x src dst) (wt0 gW) (fun j => bs0 gb (ix1 j))
def feat2 (x : (⟨S100000x64, .f32⟩ : BufTy).Contents (Elt Ideal)) (gW : (⟨S3x64x64, .f32⟩ : BufTy).Contents (Elt Ideal)) (gb : (⟨S3x64, .f32⟩ : BufTy).Contents (Elt Ideal)) (eps : (⟨S3, .f32⟩ : BufTy).Contents (Elt Ideal))
    (src dst : (⟨S1200000, .i32⟩ : BufTy).Contents (Elt Ideal)) : (⟨S100000x64, .f32⟩ : BufTy).Contents (Elt Ideal) :=
  Cert.Spec.layer (sc1 eps ix0) (feat1 x gW gb eps src dst) (agg (feat1 x gW gb eps src dst) src dst) (wt1 gW) (fun j => bs1 gb (ix1 j))
def feat3 (x : (⟨S100000x64, .f32⟩ : BufTy).Contents (Elt Ideal)) (gW : (⟨S3x64x64, .f32⟩ : BufTy).Contents (Elt Ideal)) (gb : (⟨S3x64, .f32⟩ : BufTy).Contents (Elt Ideal)) (eps : (⟨S3, .f32⟩ : BufTy).Contents (Elt Ideal))
    (src dst : (⟨S1200000, .i32⟩ : BufTy).Contents (Elt Ideal)) : (⟨S100000x64, .f32⟩ : BufTy).Contents (Elt Ideal) :=
  Cert.Spec.layer (sc2 eps ix0) (feat2 x gW gb eps src dst) (agg (feat2 x gW gb eps src dst) src dst) (wt2 gW) (fun j => bs2 gb (ix1 j))

/-- The network's result as a function of the eleven arguments. -/
def net (x : (⟨S100000x64, .f32⟩ : BufTy).Contents (Elt Ideal)) (gW : (⟨S3x64x64, .f32⟩ : BufTy).Contents (Elt Ideal)) (gb : (⟨S3x64, .f32⟩ : BufTy).Contents (Elt Ideal)) (eps : (⟨S3, .f32⟩ : BufTy).Contents (Elt Ideal))
    (src dst : (⟨S1200000, .i32⟩ : BufTy).Contents (Elt Ideal)) (gids : (⟨S100000, .i32⟩ : BufTy).Contents (Elt Ideal))
    (W1 : (⟨S192x128, .f32⟩ : BufTy).Contents (Elt Ideal)) (b1 : (⟨S128, .f32⟩ : BufTy).Contents (Elt Ideal)) (W2 : (⟨S128x32, .f32⟩ : BufTy).Contents (Elt Ideal)) (b2 : (⟨S32, .f32⟩ : BufTy).Contents (Elt Ideal)) : (⟨S256x32, .f32⟩ : BufTy).Contents (Elt Ideal) :=
  Cert.Spec.readout (pool (feat1 x gW gb eps src dst) (feat2 x gW gb eps src dst) (feat3 x gW gb eps src dst) gids)
    W1 (fun m => b1 (ix1 m)) W2 (fun j => b2 (ix1 j))

/-! ## The reference's dense parts are the specification's -/

/-- A scalar spread over the node-feature shape reads the scalar everywhere. -/
theorem spread_scalar (y : FVec Ideal S_ .f32) (i : S100000x64.Idx) :
    broadcastInDim S100000x64 ![] bcast_S_S100000x64 y i = y ix0 :=
  broadcastInDim_apply _ bcast_S_S100000x64 y i ix0 (fun a => a.elim0)

/-- A bias vector laid out as one row and spread down the rows reads, at `(r, j)`, its entry `j`. -/
theorem spread_bias (bv : FVec Ideal S64 .f32) (r : Fin 100000) (j : Fin 64) :
    broadcastInDim S100000x64 ![0, 1] bcast_S1x64_S100000x64_0_1 (broadcastInDim S1x64 ![1] bcast_S64_S1x64_1 bv) (ix2 r j) = bv (ix1 j) := by
  refine (broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 bv (ix2 (0 : Fin 1) j) (ix1 j) (fun a => match a with
    | ⟨0, _⟩ => by show j.val = if (64 : Nat) = 1 then 0 else j.val; rw [if_neg (by decide)])

/-- One layer of the reference, over any operands, is the specification's layer of them. -/
theorem refLayer_eq (s : FVec Ideal S_ .f32) (h a : FVec Ideal S100000x64 .f32) (W : FVec Ideal S64x64 .f32) (bv : FVec Ideal S64 .f32) :
    maximumf (addf (Host.dotGeneral (F := Ideal) dot_S100000x64_S64x64_S100000x64_1_0_0_1_n_n none (addf (mulf (broadcastInDim S100000x64 ![] bcast_S_S100000x64 s) h) a) W) (broadcastInDim S100000x64 ![0, 1] bcast_S1x64_S100000x64_0_1 (broadcastInDim S1x64 ![1] bcast_S64_S1x64_1 bv))) (broadcastInDim S100000x64 ![] bcast_S_S100000x64 (constant (F := Ideal) S_ .f32 0x00000000#32))
      = Cert.Spec.layer (s ix0) h a W (fun j => bv (ix1 j)) := by
  funext i
  obtain ⟨r, j, rfl⟩ : ∃ (r : Fin 100000) (j : Fin 64), i = ix2 r j := ⟨i 0, i 1, eq_ix2 i⟩
  rw [Cert.Spec.layer_ix2]
  unfold Cert.Spec.layerAt
  refine congrArg₂ max (congrArg₂ (· + ·) ?_ (spread_bias bv r j)) ((spread_scalar _ _).trans rfl)
  simp only [Host.dotGeneral]
  refine (Ideal.dotGeneral_apply _ _ _ _ _ _).trans ?_
  refine (PlainDot.contraction_eq_sum dot_S100000x64_S64x64_S100000x64_1_0_0_1_n_n rfl rfl
    (fun _ _ => rfl) (fun _ _ => rfl) (fun _ _ => rfl) (fun _ _ => rfl) _ _ r j).trans ?_
  refine Finset.sum_congr rfl fun k _ => ?_
  show (broadcastInDim S100000x64 ![] bcast_S_S100000x64 s (ix2 r k) * h (ix2 r k) + a (ix2 r k)) * W (ix2 k j) = _
  rw [spread_scalar]

/-! ## The read-out -/

theorem spread_bias_hid (bv : FVec Ideal S128 .f32) (r : Fin 256) (j : Fin 128) :
    broadcastInDim S256x128 ![0, 1] bcast_S1x128_S256x128_0_1 (broadcastInDim S1x128 ![1] bcast_S128_S1x128_1 bv) (ix2 r j) = bv (ix1 j) := by
  refine (broadcastInDim_apply _ bcast_S1x128_S256x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 bv (ix2 (0 : Fin 1) j) (ix1 j) (fun a => match a with
    | ⟨0, _⟩ => by show j.val = if (128 : Nat) = 1 then 0 else j.val; rw [if_neg (by decide)])

theorem spread_bias_out (bv : FVec Ideal S32 .f32) (r : Fin 256) (j : Fin 32) :
    broadcastInDim S256x32 ![0, 1] bcast_S1x32_S256x32_0_1 (broadcastInDim S1x32 ![1] bcast_S32_S1x32_1 bv) (ix2 r j) = bv (ix1 j) := by
  refine (broadcastInDim_apply _ bcast_S1x32_S256x32_0_1 _ (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])).trans ?_
  exact broadcastInDim_apply _ bcast_S32_S1x32_1 bv (ix2 (0 : Fin 1) j) (ix1 j) (fun a => match a with
    | ⟨0, _⟩ => by show j.val = if (32 : Nat) = 1 then 0 else j.val; rw [if_neg (by decide)])

theorem spread_scalar_hid (y : FVec Ideal S_ .f32) (i : S256x128.Idx) :
    broadcastInDim S256x128 ![] bcast_S_S256x128 y i = y ix0 :=
  broadcastInDim_apply _ bcast_S_S256x128 y i ix0 (fun a => a.elim0)

/-- The reference's read-out, over any operands, is the specification's read-out of them. -/
theorem refReadout_eq (g : FVec Ideal S256x192 .f32) (W1 : FVec Ideal S192x128 .f32) (b1 : FVec Ideal S128 .f32) (W2 : FVec Ideal S128x32 .f32) (b2 : FVec Ideal S32 .f32) :
    addf (Host.dotGeneral (F := Ideal) dot_S256x128_S128x32_S256x32_1_0_0_1_n_n none (maximumf (addf (Host.dotGeneral (F := Ideal) dot_S256x192_S192x128_S256x128_1_0_0_1_n_n none g W1) (broadcastInDim S256x128 ![0, 1] bcast_S1x128_S256x128_0_1 (broadcastInDim S1x128 ![1] bcast_S128_S1x128_1 b1))) (broadcastInDim S256x128 ![] bcast_S_S256x128 (constant (F := Ideal) S_ .f32 0x00000000#32))) W2) (broadcastInDim S256x32 ![0, 1] bcast_S1x32_S256x32_0_1 (broadcastInDim S1x32 ![1] bcast_S32_S1x32_1 b2))
      = Cert.Spec.readout g W1 (fun m => b1 (ix1 m)) W2 (fun j => b2 (ix1 j)) := by
  funext i
  obtain ⟨r, j, rfl⟩ : ∃ (r : Fin 256) (j : Fin 32), i = ix2 r j := ⟨i 0, i 1, eq_ix2 i⟩
  rw [Cert.Spec.readout_ix2]
  unfold Cert.Spec.readoutAt
  refine congrArg₂ (· + ·) ?_ (spread_bias_out b2 r j)
  simp only [Host.dotGeneral]
  refine (Ideal.dotGeneral_apply _ _ _ _ _ _).trans ?_
  refine (PlainDot.contraction_eq_sum dot_S256x128_S128x32_S256x32_1_0_0_1_n_n rfl rfl
    (fun _ _ => rfl) (fun _ _ => rfl) (fun _ _ => rfl) (fun _ _ => rfl) _ _ r j).trans ?_
  refine Finset.sum_congr rfl fun m _ => congrArg (· * W2 (ix2 m j)) ?_
  unfold Cert.Spec.hiddenAt
  refine congrArg₂ max (congrArg₂ (· + ·) ?_ (spread_bias_hid b1 r m)) ((spread_scalar_hid _ _).trans rfl)
  refine (Ideal.dotGeneral_apply _ _ _ _ _ _).trans ?_
  exact PlainDot.contraction_eq_sum dot_S256x192_S192x128_S256x128_1_0_0_1_n_n rfl rfl
    (fun _ _ => rfl) (fun _ _ => rfl) (fun _ _ => rfl) (fun _ _ => rfl) _ _ r m

/-! ## The reference's result is the network of its arguments -/

/-- The reference's result buffer, as its run states it, is `net` of the eleven argument arrays. -/
theorem res_eq (m : (ℓ : Loc nD τ sig) → Buf (Elt Ideal) ℓ) (c : Dev nD) :
    Cert.ReferenceIdeal.Value.res_main_v91 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v91
  rw [refLayer_eq, refLayer_eq, refLayer_eq, refReadout_eq]
  simp only [net, feat3, feat2, feat1, pool, agg, sc0, sc1, sc2, wt0, wt1, wt2, bs0, bs1, bs2]

end Cert.ReferenceIdeal.Net

end
-- ==== Proof.KiChain.lean ====
/-
  THE KERNEL PROGRAM'S RESULT AS THE NETWORK FUNCTION OF ITS ARGUMENTS, over the extended reals.

  The program alternates host stretches and regions.  Each host stretch is read back operation by operation: it
  forms the neighbour aggregation of the current node features, slices the layer's weight, bias and epsilon out of
  the stacked parameters and lays the small operands out as 1 × 1 and 1 × 64 arrays; these are the same named
  data-moving functions the reference applies.  Each layer region then leaves the layer's dense update of the arrays
  it is entered with.  The last stretch pools the three layers' outputs per graph and the last region leaves the
  read-out.  Composing the stages, the result buffer holds `net` of the eleven argument arrays.
-/
import proofs.«126898_j74603581932004_1_alg».proof.Proof.KiRun
import proofs.«126898_j74603581932004_1_alg».proof.Proof.KiVal0
import proofs.«126898_j74603581932004_1_alg».proof.Proof.KiVal1
import proofs.«126898_j74603581932004_1_alg».proof.Proof.KiVal2
import proofs.«126898_j74603581932004_1_alg».proof.Proof.KiVal3
import proofs.«126898_j74603581932004_1_alg».proof.Proof.RefNet
import Idealize.ShloMosaic.Lib.ValueLayout
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Idealize.ShloMosaic.StableHlo Idealize.ShloMosaic.Pipeline
open Cert.KernelIdeal Cert.KernelIdeal.Gen Cert.KernelIdeal.Hand Cert.KernelIdeal.Val
open Cert.ReferenceIdeal.Net (agg sc0 sc1 sc2 wt0 wt1 wt2 bs0 bs1 bs2 pool feat1 feat2 feat3 net)

variable (m : (ℓ : Loc nD τ sig) → Buf (Elt Ideal) ℓ) (ρ : Dev nD → PrngReg)

/-! ## Equal operands give equal layers and read-outs -/

theorem layer_congr {n : Nat} {s s' : EReal} {h h' a a' : (⟨2, ![n, 64]⟩ : Shape).Idx → EReal}
    {W W' : (⟨2, ![64, 64]⟩ : Shape).Idx → EReal} {b b' : Fin 64 → EReal}
    (hs : s = s') (hh : h = h') (ha : a = a') (hW : W = W') (hb : ∀ j, b j = b' j) :
    Cert.Spec.layer s h a W b = Cert.Spec.layer s' h' a' W' b' := by
  subst hs hh ha hW; exact congrArg _ (funext hb)

theorem readout_congr {n : Nat} {g g' : (⟨2, ![n, 192]⟩ : Shape).Idx → EReal} {W1 W1' : (⟨2, ![192, 128]⟩ : Shape).Idx → EReal}
    {b1 b1' : Fin 128 → EReal} {W2 W2' : (⟨2, ![128, 32]⟩ : Shape).Idx → EReal} {b2 b2' : Fin 32 → EReal}
    (hg : g = g') (hW1 : W1 = W1') (hb1 : ∀ k, b1 k = b1' k) (hW2 : W2 = W2') (hb2 : ∀ j, b2 j = b2' j) :
    Cert.Spec.readout g W1 b1 W2 b2 = Cert.Spec.readout g' W1' b1' W2' b2' := by
  subst hg hW1 hW2
  rw [show b1 = b1' from funext hb1, show b2 = b2' from funext hb2]

/-! ## A buffer no stretch writes and no region owns keeps its launch contents -/

theorem upto2 (c : Dev nD) (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans ((W1_keep m ρ c r h0).trans rfl)
theorem upto4 (c : Dev nD) (r : Ref sig .tc) (h0 : r ∉ hostOps0_W) (a0 : ∀ w, Pipeline.arrRef spec0 w ≠ r)
    (h1 : r ∉ hostOps1_W) (a1 : ∀ w, Pipeline.arrRef spec1 w ≠ r) :
    W4 m ρ c (Proc.devRef .tc r) = m ((c : Thread nD τ).loc r) :=
  (W4_of_ne m ρ c r a1).trans ((W3_keep m ρ c r h1).trans (upto2 m ρ c r h0 a0))
theorem upto6 (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r) :
    W6 m ρ c (Proc.devRef .tc r) = m ((c : Thread nD τ).loc r) :=
  (W6_of_ne m ρ c r a2).trans ((W5_keep m ρ c r h2).trans (upto4 m ρ c r h0 a0 h1 a1))

/-! ## Layer 1: host stretch 0, then region 0 -/

/-- The node features the region reads are the previous layer's output (the argument `x` for the first layer). -/
theorem e0_x (c : Dev nD) : E1 m ρ c main_arg0 = (m ((c : Thread nD τ).loc main_arg0)) :=
  (W1_keep m ρ c main_arg0 (by decide)).trans rfl

/-- The neighbour array the region reads is the aggregation of those features along the edges. -/
theorem e0_agg (c : Dev nD) : E1 m ρ c main_v9 = agg (m ((c : Thread nD τ).loc main_arg0)) (m ((c : Thread nD τ).loc main_arg8)) (m ((c : Thread nD τ).loc main_arg9)) := by
  have e : E1 m ρ c main_v9 = agg (W0 m ρ c (Proc.devRef .tc main_arg0)) (W0 m ρ c (Proc.devRef .tc main_arg8)) (W0 m ρ c (Proc.devRef .tc main_arg9)) := by
    show StableHlo.after hostOps0 (W0 m ρ c) (Proc.devRef .tc main_v9) = _
    after_results; rfl
  exact e

/-- The weight the region reads is layer 1's slice of the stacked weights. -/
theorem e0_w (c : Dev nD) : E1 m ρ c main_v11 = wt0 (m ((c : Thread nD τ).loc main_arg1)) := by
  have e : E1 m ρ c main_v11 = wt0 (W0 m ρ c (Proc.devRef .tc main_arg1)) := by
    show StableHlo.after hostOps0 (W0 m ρ c) (Proc.devRef .tc main_v11) = _
    after_results; rfl
  exact e

/-- The 1 × 1 scalar the region reads holds one plus layer 1's epsilon. -/
theorem e0_sc (c : Dev nD) : E1 m ρ c main_v17 (ix2 (0 : Fin 1) (0 : Fin 1)) = sc0 (m ((c : Thread nD τ).loc main_arg3)) ix0 := by
  have e : E1 m ρ c main_v17 = shapeCast _ (sc0 (W0 m ρ c (Proc.devRef .tc main_arg3))) shapeCasts_S_S1x1 := by
    show StableHlo.after hostOps0 (W0 m ρ c) (Proc.devRef .tc main_v17) = _
    after_results; rfl
  rw [e]
  exact shapeCast_apply _ shapeCasts_S_S1x1 _ ix0 (by rfl)

/-- The 1 × 64 bias row the region reads holds layer 1's slice of the stacked biases. -/
theorem e0_b (c : Dev nD) (j : Fin 64) : E1 m ρ c main_v18 (ix2 (0 : Fin 1) j) = bs0 (m ((c : Thread nD τ).loc main_arg2)) (ix1 j) := by
  have e : E1 m ρ c main_v18 = shapeCast _ (bs0 (W0 m ρ c (Proc.devRef .tc main_arg2))) shapeCasts_S64_S1x64 := by
    show StableHlo.after hostOps0 (W0 m ρ c) (Proc.devRef .tc main_v18) = _
    after_results; rfl
  rw [e]
  exact shapeCast_a_1a_apply _ shapeCasts_S64_S1x64 0 j

/-- The region's output array is the network's features after layer 1. -/
theorem x2_feat (c : Dev nD) : W2 m ρ c (Proc.devRef .tc main_v19) = feat1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W2_arr m ρ c 5).trans ((final0 (E1 m ρ) c).trans
    (layer_congr (e0_sc m ρ c) (e0_x m ρ c) (e0_agg m ρ c) (e0_w m ρ c) (e0_b m ρ c)))

/-! ## Layer 2: host stretch 1, then region 1 -/

/-- The node features the region reads are the previous layer's output (the argument `x` for the first layer). -/
theorem e1_x (c : Dev nD) : E3 m ρ c main_v19 = (feat1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) :=
  (W3_keep m ρ c main_v19 (by decide)).trans (x2_feat m ρ c)

/-- The neighbour array the region reads is the aggregation of those features along the edges. -/
theorem e1_agg (c : Dev nD) : E3 m ρ c main_v29 = agg (feat1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (m ((c : Thread nD τ).loc main_arg8)) (m ((c : Thread nD τ).loc main_arg9)) := by
  have e : E3 m ρ c main_v29 = agg (W2 m ρ c (Proc.devRef .tc main_v19)) (W2 m ρ c (Proc.devRef .tc main_arg8)) (W2 m ρ c (Proc.devRef .tc main_arg9)) := by
    show StableHlo.after hostOps1 (W2 m ρ c) (Proc.devRef .tc main_v29) = _
    after_results; rfl
  rw [e]
  rw [x2_feat m ρ c, upto2 m ρ c main_arg8 (by decide) (by decide), upto2 m ρ c main_arg9 (by decide) (by decide)]

/-- The weight the region reads is layer 2's slice of the stacked weights. -/
theorem e1_w (c : Dev nD) : E3 m ρ c main_v31 = wt1 (m ((c : Thread nD τ).loc main_arg1)) := by
  have e : E3 m ρ c main_v31 = wt1 (W2 m ρ c (Proc.devRef .tc main_arg1)) := by
    show StableHlo.after hostOps1 (W2 m ρ c) (Proc.devRef .tc main_v31) = _
    after_results; rfl
  rw [e]
  rw [upto2 m ρ c main_arg1 (by decide) (by decide)]

/-- The 1 × 1 scalar the region reads holds one plus layer 2's epsilon. -/
theorem e1_sc (c : Dev nD) : E3 m ρ c main_v37 (ix2 (0 : Fin 1) (0 : Fin 1)) = sc1 (m ((c : Thread nD τ).loc main_arg3)) ix0 := by
  have e : E3 m ρ c main_v37 = shapeCast _ (sc1 (W2 m ρ c (Proc.devRef .tc main_arg3))) shapeCasts_S_S1x1 := by
    show StableHlo.after hostOps1 (W2 m ρ c) (Proc.devRef .tc main_v37) = _
    after_results; rfl
  rw [e]
  rw [upto2 m ρ c main_arg3 (by decide) (by decide)]
  exact shapeCast_apply _ shapeCasts_S_S1x1 _ ix0 (by rfl)

/-- The 1 × 64 bias row the region reads holds layer 2's slice of the stacked biases. -/
theorem e1_b (c : Dev nD) (j : Fin 64) : E3 m ρ c main_v38 (ix2 (0 : Fin 1) j) = bs1 (m ((c : Thread nD τ).loc main_arg2)) (ix1 j) := by
  have e : E3 m ρ c main_v38 = shapeCast _ (bs1 (W2 m ρ c (Proc.devRef .tc main_arg2))) shapeCasts_S64_S1x64 := by
    show StableHlo.after hostOps1 (W2 m ρ c) (Proc.devRef .tc main_v38) = _
    after_results; rfl
  rw [e]
  rw [upto2 m ρ c main_arg2 (by decide) (by decide)]
  exact shapeCast_a_1a_apply _ shapeCasts_S64_S1x64 0 j

/-- The region's output array is the network's features after layer 2. -/
theorem x4_feat (c : Dev nD) : W4 m ρ c (Proc.devRef .tc main_v39) = feat2 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W4_arr m ρ c 5).trans ((final1 (E3 m ρ) c).trans
    (layer_congr (e1_sc m ρ c) (e1_x m ρ c) (e1_agg m ρ c) (e1_w m ρ c) (e1_b m ρ c)))

/-! ## Layer 3: host stretch 2, then region 2 -/

/-- The node features the region reads are the previous layer's output (the argument `x` for the first layer). -/
theorem e2_x (c : Dev nD) : E5 m ρ c main_v39 = (feat2 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) :=
  (W5_keep m ρ c main_v39 (by decide)).trans (x4_feat m ρ c)

/-- The neighbour array the region reads is the aggregation of those features along the edges. -/
theorem e2_agg (c : Dev nD) : E5 m ρ c main_v49 = agg (feat2 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (m ((c : Thread nD τ).loc main_arg8)) (m ((c : Thread nD τ).loc main_arg9)) := by
  have e : E5 m ρ c main_v49 = agg (W4 m ρ c (Proc.devRef .tc main_v39)) (W4 m ρ c (Proc.devRef .tc main_arg8)) (W4 m ρ c (Proc.devRef .tc main_arg9)) := by
    show StableHlo.after hostOps2 (W4 m ρ c) (Proc.devRef .tc main_v49) = _
    after_results; rfl
  rw [e]
  rw [x4_feat m ρ c, upto4 m ρ c main_arg8 (by decide) (by decide) (by decide) (by decide), upto4 m ρ c main_arg9 (by decide) (by decide) (by decide) (by decide)]

/-- The weight the region reads is layer 3's slice of the stacked weights. -/
theorem e2_w (c : Dev nD) : E5 m ρ c main_v51 = wt2 (m ((c : Thread nD τ).loc main_arg1)) := by
  have e : E5 m ρ c main_v51 = wt2 (W4 m ρ c (Proc.devRef .tc main_arg1)) := by
    show StableHlo.after hostOps2 (W4 m ρ c) (Proc.devRef .tc main_v51) = _
    after_results; rfl
  rw [e]
  rw [upto4 m ρ c main_arg1 (by decide) (by decide) (by decide) (by decide)]

/-- The 1 × 1 scalar the region reads holds one plus layer 3's epsilon. -/
theorem e2_sc (c : Dev nD) : E5 m ρ c main_v57 (ix2 (0 : Fin 1) (0 : Fin 1)) = sc2 (m ((c : Thread nD τ).loc main_arg3)) ix0 := by
  have e : E5 m ρ c main_v57 = shapeCast _ (sc2 (W4 m ρ c (Proc.devRef .tc main_arg3))) shapeCasts_S_S1x1 := by
    show StableHlo.after hostOps2 (W4 m ρ c) (Proc.devRef .tc main_v57) = _
    after_results; rfl
  rw [e]
  rw [upto4 m ρ c main_arg3 (by decide) (by decide) (by decide) (by decide)]
  exact shapeCast_apply _ shapeCasts_S_S1x1 _ ix0 (by rfl)

/-- The 1 × 64 bias row the region reads holds layer 3's slice of the stacked biases. -/
theorem e2_b (c : Dev nD) (j : Fin 64) : E5 m ρ c main_v58 (ix2 (0 : Fin 1) j) = bs2 (m ((c : Thread nD τ).loc main_arg2)) (ix1 j) := by
  have e : E5 m ρ c main_v58 = shapeCast _ (bs2 (W4 m ρ c (Proc.devRef .tc main_arg2))) shapeCasts_S64_S1x64 := by
    show StableHlo.after hostOps2 (W4 m ρ c) (Proc.devRef .tc main_v58) = _
    after_results; rfl
  rw [e]
  rw [upto4 m ρ c main_arg2 (by decide) (by decide) (by decide) (by decide)]
  exact shapeCast_a_1a_apply _ shapeCasts_S64_S1x64 0 j

/-- The region's output array is the network's features after layer 3. -/
theorem x6_feat (c : Dev nD) : W6 m ρ c (Proc.devRef .tc main_v59) = feat3 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W6_arr m ρ c 5).trans ((final2 (E5 m ρ) c).trans
    (layer_congr (e2_sc m ρ c) (e2_x m ρ c) (e2_agg m ρ c) (e2_w m ρ c) (e2_b m ρ c)))

/-! ## Pooling and read-out: host stretch 3, then region 3 -/

/-- The first and second layers' outputs are still in their buffers when the last stretch reads them. -/
theorem w6_v19 (c : Dev nD) : W6 m ρ c (Proc.devRef .tc main_v19) = feat1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W6_of_ne m ρ c main_v19 (by decide)).trans ((W5_keep m ρ c main_v19 (by decide)).trans
    ((W4_in m ρ c 0 rfl).trans ((W3_keep m ρ c main_v19 (by decide)).trans (x2_feat m ρ c))))
theorem w6_v39 (c : Dev nD) : W6 m ρ c (Proc.devRef .tc main_v39) = feat2 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W6_in m ρ c 0 rfl).trans ((W5_keep m ρ c main_v39 (by decide)).trans (x4_feat m ρ c))

/-- The graph features the read-out region reads are the pooling of the three layers' outputs. -/
theorem e7_pool (c : Dev nD) : E7 m ρ c main_v67 = pool (feat1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (feat2 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (feat3 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (m ((c : Thread nD τ).loc main_arg10)) := by
  have e : E7 m ρ c main_v67 = pool (W6 m ρ c (Proc.devRef .tc main_v19)) (W6 m ρ c (Proc.devRef .tc main_v39)) (W6 m ρ c (Proc.devRef .tc main_v59)) (W6 m ρ c (Proc.devRef .tc main_arg10)) := by
    show StableHlo.after hostOps3 (W6 m ρ c) (Proc.devRef .tc main_v67) = _
    after_results; rfl
  rw [e, w6_v19 m ρ c, w6_v39 m ρ c, x6_feat m ρ c, upto6 m ρ c main_arg10 (by decide) (by decide) (by decide) (by decide) (by decide) (by decide)]

theorem e7_b1 (c : Dev nD) (k : Fin 128) : E7 m ρ c main_v68 (ix2 (0 : Fin 1) k) = (m ((c : Thread nD τ).loc main_arg5)) (ix1 k) := by
  have e : E7 m ρ c main_v68 = shapeCast _ (W6 m ρ c (Proc.devRef .tc main_arg5)) shapeCasts_S128_S1x128 := by
    show StableHlo.after hostOps3 (W6 m ρ c) (Proc.devRef .tc main_v68) = _
    after_results; rfl
  rw [e, upto6 m ρ c main_arg5 (by decide) (by decide) (by decide) (by decide) (by decide) (by decide)]
  exact shapeCast_a_1a_apply _ shapeCasts_S128_S1x128 0 k

theorem e7_b2 (c : Dev nD) (j : Fin 32) : E7 m ρ c main_v69 (ix2 (0 : Fin 1) j) = (m ((c : Thread nD τ).loc main_arg7)) (ix1 j) := by
  have e : E7 m ρ c main_v69 = shapeCast _ (W6 m ρ c (Proc.devRef .tc main_arg7)) shapeCasts_S32_S1x32 := by
    show StableHlo.after hostOps3 (W6 m ρ c) (Proc.devRef .tc main_v69) = _
    after_results; rfl
  rw [e, upto6 m ρ c main_arg7 (by decide) (by decide) (by decide) (by decide) (by decide) (by decide)]
  exact shapeCast_a_1a_apply _ shapeCasts_S32_S1x32 0 j

theorem e7_W1 (c : Dev nD) : E7 m ρ c main_arg4 = (m ((c : Thread nD τ).loc main_arg4)) :=
  (W7_keep m ρ c main_arg4 (by decide)).trans (upto6 m ρ c main_arg4 (by decide) (by decide) (by decide) (by decide) (by decide) (by decide))
theorem e7_W2 (c : Dev nD) : E7 m ρ c main_arg6 = (m ((c : Thread nD τ).loc main_arg6)) :=
  (W7_keep m ρ c main_arg6 (by decide)).trans (upto6 m ρ c main_arg6 (by decide) (by decide) (by decide) (by decide) (by decide) (by decide))

/-- THE RESULT: after the last region the result buffer holds the network of the eleven arguments. -/
theorem x8_net (c : Dev nD) : W8 m ρ c (Proc.devRef .tc main_v70) = net (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg4)) (m ((c : Thread nD τ).loc main_arg5)) (m ((c : Thread nD τ).loc main_arg6)) (m ((c : Thread nD τ).loc main_arg7)) :=
  (W8_arr m ρ c 5).trans ((final3 (E7 m ρ) c).trans
    (readout_congr (e7_pool m ρ c) (e7_W1 m ρ c) (e7_b1 m ρ c) (e7_W2 m ρ c) (e7_b2 m ρ c)))

end Cert.KernelIdeal.Chain

end
-- ==== Proof.lean ====
/-
  The certificate's claims, assembled.

  Both printed kernel programs run through the same four regions between the same host stretches; one run theorem
  per program (at any float instance) says every weakly fair execution ends with every unscoped buffer at a named
  valuation, at which the eleven argument buffers hold their launch contents: the two frames.  The reference is a
  host program; its frame is its run with the result dropped.  No operation was rewritten by the idealization, so
  there is nothing to preserve.  Over the extended reals the kernel program's result buffer holds the network
  function of its arguments (three message-passing layers, pooling, read-out) and so does the reference's; from
  memories that agree on the arguments the two results are equal.
-/
import proofs.«126898_j74603581932004_1_alg».proof.Defs
import proofs.«126898_j74603581932004_1_alg».proof.Proof.Gen.Kernel
import proofs.«126898_j74603581932004_1_alg».proof.Proof.Gen.KernelIdeal
import proofs.«126898_j74603581932004_1_alg».proof.Proof.Gen.ReferenceIdeal
import proofs.«126898_j74603581932004_1_alg».proof.Proof.Gen.Pre_finite_inputs
import proofs.«126898_j74603581932004_1_alg».proof.Proof.Gen.ReferenceIdeal.Run
import proofs.«126898_j74603581932004_1_alg».proof.Proof.KRun
import proofs.«126898_j74603581932004_1_alg».proof.Proof.KiRun
import proofs.«126898_j74603581932004_1_alg».proof.Proof.KiChain
import proofs.«126898_j74603581932004_1_alg».proof.Proof.RefNet

noncomputable section

namespace Cert.Proof

open Idealize.ShloMosaic Idealize.SL.Sem

/-- The word-level kernel program runs, faults nowhere, and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W8_main_arg0 m ρ c),
      (h c _ (Cert.Kernel.Hand.mem_uc Cert.Kernel.main_arg1 (by decide))).trans (Cert.Kernel.Hand.W8_main_arg1 m ρ c),
      (h c _ (Cert.Kernel.Hand.mem_uc Cert.Kernel.main_arg2 (by decide))).trans (Cert.Kernel.Hand.W8_main_arg2 m ρ c),
      (h c _ (Cert.Kernel.Hand.mem_uc Cert.Kernel.main_arg3 (by decide))).trans (Cert.Kernel.Hand.W8_main_arg3 m ρ c),
      (h c _ (Cert.Kernel.Hand.mem_uc Cert.Kernel.main_arg4 (by decide))).trans (Cert.Kernel.Hand.W8_main_arg4 m ρ c),
      (h c _ (Cert.Kernel.Hand.mem_uc Cert.Kernel.main_arg5 (by decide))).trans (Cert.Kernel.Hand.W8_main_arg5 m ρ c),
      (h c _ (Cert.Kernel.Hand.mem_uc Cert.Kernel.main_arg6 (by decide))).trans (Cert.Kernel.Hand.W8_main_arg6 m ρ c),
      (h c _ (Cert.Kernel.Hand.mem_uc Cert.Kernel.main_arg7 (by decide))).trans (Cert.Kernel.Hand.W8_main_arg7 m ρ c),
      (h c _ (Cert.Kernel.Hand.mem_uc Cert.Kernel.main_arg8 (by decide))).trans (Cert.Kernel.Hand.W8_main_arg8 m ρ c),
      (h c _ (Cert.Kernel.Hand.mem_uc Cert.Kernel.main_arg9 (by decide))).trans (Cert.Kernel.Hand.W8_main_arg9 m ρ c),
      (h c _ (Cert.Kernel.Hand.mem_uc Cert.Kernel.main_arg10 (by decide))).trans (Cert.Kernel.Hand.W8_main_arg10 m ρ c)⟩)
    (Cert.Kernel.Hand.run_all (F := Bits) m ρ)

/-- The idealized kernel program runs, faults nowhere, and leaves its arguments as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c)⟩)
    (Cert.KernelIdeal.Hand.run_all (F := Ideal) m ρ)

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network function of the (agreeing) arguments in their result buffers. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v70 (by decide))).trans (Cert.KernelIdeal.Chain.x8_net m ρ c),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Net.res_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
